-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x80 : Shape := ⟨2, ![32, 80]⟩
abbrev S200000x256 : Shape := ⟨2, ![200000, 256]⟩
abbrev S1202 : Shape := ⟨1, ![1202]⟩
abbrev S24640 : Shape := ⟨1, ![24640]⟩
abbrev S123200 : Shape := ⟨1, ![123200]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S1202 : S_.BroadcastsInDim S1202 (![] : Fin 0 → Fin S1202.rank)
  reducesTo_S1202_S_d0 : S1202.ReducesTo [0] S_

variable [Facts]

def fn {F : FTy → Type} [FloatOps F] (main_arg0 : IVec S32x80 32) (main_arg1 : FVec F S200000x256 .f32) (main_arg2 : FVec F S200000x256 .f32) (main_arg3 : FVec F S1202 .f32) (main_arg4 : IVec S24640 32) (main_arg5 : IVec S24640 32) (main_arg6 : IVec S123200 32) (main_arg7 : IVec S123200 32) : IVec S_ 1 :=
  let main_v0 : FVec F S200000x256 .f32 := Host.absf main_arg1
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg2
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S1202 .f32 := Host.absf main_arg3
  let main_cst_2 : FVec F S_ .f32 := constant S_ .f32 0x7F800000#32
  let main_v10 : FVec F S1202 .f32 := broadcastInDim S1202 ![] bcast_S_S1202 main_cst_2
  let main_v11 : IVec S1202 1 := cmpf .olt main_v9 main_v10
  let main_c_3 : IVec S_ 1 := constantI S_ 1 1#1
  let main_v12 : IVec S_ 1 := (fun x v => Host.reduce IntOp.andi x v reducesTo_S1202_S_d0 h_S_) main_v11 main_c_3
  let main_v13 : IVec S_ 1 := andi main_v8 main_v12
  main_v13
-- ==== Kernel.lean ====
abbrev S32x80 : Shape := ⟨2, ![32, 80]⟩
abbrev S200000x256 : Shape := ⟨2, ![200000, 256]⟩
abbrev S1202 : Shape := ⟨1, ![1202]⟩
abbrev S24640 : Shape := ⟨1, ![24640]⟩
abbrev S123200 : Shape := ⟨1, ![123200]⟩
abbrev S2560 : Shape := ⟨1, ![2560]⟩
abbrev S_ : Shape := ⟨0, ![]⟩
abbrev S2560x1 : Shape := ⟨2, ![2560, 1]⟩
abbrev S2560x256 : Shape := ⟨2, ![2560, 256]⟩
abbrev S24640x1 : Shape := ⟨2, ![24640, 1]⟩
abbrev S24640x256 : Shape := ⟨2, ![24640, 256]⟩
abbrev S123200x1 : Shape := ⟨2, ![123200, 1]⟩
abbrev S123200x256 : Shape := ⟨2, ![123200, 256]⟩
abbrev S400000x256 : Shape := ⟨2, ![400000, 256]⟩
abbrev S5000x256 : Shape := ⟨2, ![5000, 256]⟩
abbrev S1 : Shape := ⟨1, ![1]⟩

abbrev nBuf : Space → Nat
  | .hbm => 214
  | .vmem => 2
  | .smem => 0
  | _ => 0

abbrev hbmTy0_0 (i : Nat) : BufTy := match i % 128 with
  | 0 => ⟨S32x80, .i32⟩
  | 1 => ⟨S200000x256, .f32⟩
  | 2 => ⟨S200000x256, .f32⟩
  | 3 => ⟨S1202, .f32⟩
  | 4 => ⟨S24640, .i32⟩
  | 5 => ⟨S24640, .i32⟩
  | 6 => ⟨S123200, .i32⟩
  | 7 => ⟨S123200, .i32⟩
  | 8 => ⟨S2560, .i32⟩
  | 9 => ⟨S_, .i32⟩
  | 10 => ⟨S2560, .i32⟩
  | 11 => ⟨S2560, .i1⟩
  | 12 => ⟨S_, .i32⟩
  | 13 => ⟨S2560, .i32⟩
  | 14 => ⟨S2560, .i32⟩
  | 15 => ⟨S2560, .i32⟩
  | 16 => ⟨S2560x1, .i32⟩
  | 17 => ⟨S2560x256, .f32⟩
  | 18 => ⟨S_, .i32⟩
  | 19 => ⟨S2560, .i32⟩
  | 20 => ⟨S2560, .i1⟩
  | 21 => ⟨S_, .i32⟩
  | 22 => ⟨S2560, .i32⟩
  | 23 => ⟨S2560, .i32⟩
  | 24 => ⟨S2560, .i32⟩
  | 25 => ⟨S2560x1, .i32⟩
  | 26 => ⟨S2560x256, .f32⟩
  | 27 => ⟨S_, .i32⟩
  | 28 => ⟨S24640, .i32⟩
  | 29 => ⟨S24640, .i1⟩
  | 30 => ⟨S_, .i32⟩
  | 31 => ⟨S24640, .i32⟩
  | 32 => ⟨S24640, .i32⟩
  | 33 => ⟨S24640, .i32⟩
  | 34 => ⟨S24640x1, .i32⟩
  | 35 => ⟨S24640x256, .f32⟩
  | 36 => ⟨S_, .i32⟩
  | 37 => ⟨S24640, .i32⟩
  | 38 => ⟨S24640, .i1⟩
  | 39 => ⟨S_, .i32⟩
  | 40 => ⟨S24640, .i32⟩
  | 41 => ⟨S24640, .i32⟩
  | 42 => ⟨S24640, .i32⟩
  | 43 => ⟨S24640x1, .i32⟩
  | 44 => ⟨S24640x256, .f32⟩
  | 45 => ⟨S24640x256, .f32⟩
  | 46 => ⟨S_, .f32⟩
  | 47 => ⟨S24640, .f32⟩
  | 48 => ⟨S_, .f32⟩
  | 49 => ⟨S_, .f32⟩
  | 50 => ⟨S_, .f32⟩
  | 51 => ⟨S24640, .f32⟩
  | 52 => ⟨S24640, .f32⟩
  | 53 => ⟨S_, .f32⟩
  | 54 => ⟨S24640, .f32⟩
  | 55 => ⟨S24640, .f32⟩
  | 56 => ⟨S_, .f32⟩
  | 57 => ⟨S24640, .f32⟩
  | 58 => ⟨S24640, .f32⟩
  | 59 => ⟨S_, .f32⟩
  | 60 => ⟨S24640, .f32⟩
  | 61 => ⟨S24640, .f32⟩
  | 62 => ⟨S24640, .f32⟩
  | 63 => ⟨S24640, .i32⟩
  | 64 => ⟨S_, .i32⟩
  | 65 => ⟨S24640, .i32⟩
  | 66 => ⟨S24640, .i1⟩
  | 67 => ⟨S_, .i32⟩
  | 68 => ⟨S24640, .i32⟩
  | 69 => ⟨S24640, .i32⟩
  | 70 => ⟨S24640, .i32⟩
  | 71 => ⟨S24640x1, .i32⟩
  | 72 => ⟨S24640, .f32⟩
  | 73 => ⟨S_, .f32⟩
  | 74 => ⟨S24640, .f32⟩
  | 75 => ⟨S24640, .f32⟩
  | 76 => ⟨S24640x1, .f32⟩
  | 77 => ⟨S24640x256, .f32⟩
  | 78 => ⟨S24640x256, .f32⟩
  | 79 => ⟨S24640x256, .f32⟩
  | 80 => ⟨S_, .f32⟩
  | 81 => ⟨S24640x256, .f32⟩
  | 82 => ⟨S24640x256, .f32⟩
  | 83 => ⟨S24640x256, .f32⟩
  | 84 => ⟨S24640x256, .f32⟩
  | 85 => ⟨S24640x256, .f32⟩
  | 86 => ⟨S24640x256, .f32⟩
  | 87 => ⟨S_, .f32⟩
  | 88 => ⟨S24640x256, .f32⟩
  | 89 => ⟨S24640x256, .f32⟩
  | 90 => ⟨S24640x256, .f32⟩
  | 91 => ⟨S_, .f32⟩
  | 92 => ⟨S2560x256, .f32⟩
  | 93 => ⟨S_, .i32⟩
  | 94 => ⟨S24640, .i32⟩
  | 95 => ⟨S24640, .i1⟩
  | 96 => ⟨S_, .i32⟩
  | 97 => ⟨S24640, .i32⟩
  | 98 => ⟨S24640, .i32⟩
  | 99 => ⟨S24640, .i32⟩
  | 100 => ⟨S24640x1, .i32⟩
  | 101 => ⟨S2560x256, .f32⟩
  | 102 => ⟨S_, .f32⟩
  | 103 => ⟨S2560x256, .f32⟩
  | 104 => ⟨S_, .i32⟩
  | 105 => ⟨S24640, .i32⟩
  | 106 => ⟨S24640, .i1⟩
  | 107 => ⟨S_, .i32⟩
  | 108 => ⟨S24640, .i32⟩
  | 109 => ⟨S24640, .i32⟩
  | 110 => ⟨S24640, .i32⟩
  | 111 => ⟨S24640x1, .i32⟩
  | 112 => ⟨S2560x256, .f32⟩
  | 113 => ⟨S_, .i32⟩
  | 114 => ⟨S123200, .i32⟩
  | 115 => ⟨S123200, .i1⟩
  | 116 => ⟨S_, .i32⟩
  | 117 => ⟨S123200, .i32⟩
  | 118 => ⟨S123200, .i32⟩
  | 119 => ⟨S123200, .i32⟩
  | 120 => ⟨S123200x1, .i32⟩
  | 121 => ⟨S123200x256, .f32⟩
  | 122 => ⟨S_, .i32⟩
  | 123 => ⟨S123200, .i32⟩
  | 124 => ⟨S123200, .i1⟩
  | 125 => ⟨S_, .i32⟩
  | 126 => ⟨S123200, .i32⟩
  | 127 => ⟨S123200, .i32⟩
  | _ => ⟨S32x80, .i32⟩

abbrev hbmTy0_1 (i : Nat) : BufTy := match i % 128 with
  | 0 => ⟨S123200, .i32⟩
  | 1 => ⟨S123200x1, .i32⟩
  | 2 => ⟨S123200x256, .f32⟩
  | 3 => ⟨S123200x256, .f32⟩
  | 4 => ⟨S_, .f32⟩
  | 5 => ⟨S123200, .f32⟩
  | 6 => ⟨S_, .f32⟩
  | 7 => ⟨S_, .f32⟩
  | 8 => ⟨S_, .f32⟩
  | 9 => ⟨S123200, .f32⟩
  | 10 => ⟨S123200, .f32⟩
  | 11 => ⟨S_, .f32⟩
  | 12 => ⟨S123200, .f32⟩
  | 13 => ⟨S123200, .f32⟩
  | 14 => ⟨S_, .f32⟩
  | 15 => ⟨S123200, .f32⟩
  | 16 => ⟨S123200, .f32⟩
  | 17 => ⟨S_, .f32⟩
  | 18 => ⟨S123200, .f32⟩
  | 19 => ⟨S123200, .f32⟩
  | 20 => ⟨S123200, .f32⟩
  | 21 => ⟨S123200, .i32⟩
  | 22 => ⟨S_, .i32⟩
  | 23 => ⟨S123200, .i32⟩
  | 24 => ⟨S123200, .i1⟩
  | 25 => ⟨S_, .i32⟩
  | 26 => ⟨S123200, .i32⟩
  | 27 => ⟨S123200, .i32⟩
  | 28 => ⟨S123200, .i32⟩
  | 29 => ⟨S123200x1, .i32⟩
  | 30 => ⟨S123200, .f32⟩
  | 31 => ⟨S123200, .f32⟩
  | 32 => ⟨S123200x1, .f32⟩
  | 33 => ⟨S_, .f32⟩
  | 34 => ⟨S123200x1, .f32⟩
  | 35 => ⟨S123200x1, .f32⟩
  | 36 => ⟨S123200x256, .f32⟩
  | 37 => ⟨S123200x256, .f32⟩
  | 38 => ⟨S_, .i32⟩
  | 39 => ⟨S123200, .i32⟩
  | 40 => ⟨S123200, .i1⟩
  | 41 => ⟨S_, .i32⟩
  | 42 => ⟨S123200, .i32⟩
  | 43 => ⟨S123200, .i32⟩
  | 44 => ⟨S123200, .i32⟩
  | 45 => ⟨S123200x1, .i32⟩
  | 46 => ⟨S2560x256, .f32⟩
  | 47 => ⟨S_, .f32⟩
  | 48 => ⟨S123200x1, .f32⟩
  | 49 => ⟨S123200x1, .f32⟩
  | 50 => ⟨S123200x256, .f32⟩
  | 51 => ⟨S123200x256, .f32⟩
  | 52 => ⟨S_, .i32⟩
  | 53 => ⟨S123200, .i32⟩
  | 54 => ⟨S123200, .i1⟩
  | 55 => ⟨S_, .i32⟩
  | 56 => ⟨S123200, .i32⟩
  | 57 => ⟨S123200, .i32⟩
  | 58 => ⟨S123200, .i32⟩
  | 59 => ⟨S123200x1, .i32⟩
  | 60 => ⟨S2560x256, .f32⟩
  | 61 => ⟨S_, .f32⟩
  | 62 => ⟨S2560x256, .f32⟩
  | 63 => ⟨S2560x256, .f32⟩
  | 64 => ⟨S_, .i32⟩
  | 65 => ⟨S2560, .i32⟩
  | 66 => ⟨S2560, .i1⟩
  | 67 => ⟨S_, .i32⟩
  | 68 => ⟨S2560, .i32⟩
  | 69 => ⟨S2560, .i32⟩
  | 70 => ⟨S2560, .i32⟩
  | 71 => ⟨S2560x1, .i32⟩
  | 72 => ⟨S200000x256, .f32⟩
  | 73 => ⟨S_, .f32⟩
  | 74 => ⟨S2560x256, .f32⟩
  | 75 => ⟨S2560x256, .f32⟩
  | 76 => ⟨S_, .i32⟩
  | 77 => ⟨S2560, .i32⟩
  | 78 => ⟨S2560, .i1⟩
  | 79 => ⟨S_, .i32⟩
  | 80 => ⟨S2560, .i32⟩
  | 81 => ⟨S2560, .i32⟩
  | 82 => ⟨S2560, .i32⟩
  | 83 => ⟨S2560x1, .i32⟩
  | 84 => ⟨S200000x256, .f32⟩
  | 85 => ⟨S400000x256, .f32⟩
  | _ => ⟨S32x80, .i32⟩

abbrev hbmTy (i : Nat) : BufTy := match i / 128 with
  | 0 => hbmTy0_0 i
  | 1 => hbmTy0_1 i
  | _ => ⟨S32x80, .i32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | _, _ => ⟨S32x80, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_cst_7 : Ref sig .tc := ⟨.hbm, 48, rfl⟩
abbrev main_cst_8 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_c_12 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_14 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_16 : Ref sig .tc := ⟨.hbm, 91, rfl⟩
abbrev main_v60 : Ref sig .tc := ⟨.hbm, 92, rfl⟩
abbrev main_c_17 : Ref sig .tc := ⟨.hbm, 93, rfl⟩
abbrev main_v61 : Ref sig .tc := ⟨.hbm, 94, rfl⟩
abbrev main_v62 : Ref sig .tc := ⟨.hbm, 95, rfl⟩
abbrev main_c_18 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_19 : Ref sig .tc := ⟨.hbm, 102, rfl⟩
abbrev main_v68 : Ref sig .tc := ⟨.hbm, 103, rfl⟩
abbrev main_c_20 : Ref sig .tc := ⟨.hbm, 104, rfl⟩
abbrev main_v69 : Ref sig .tc := ⟨.hbm, 105, rfl⟩
abbrev main_v70 : Ref sig .tc := ⟨.hbm, 106, rfl⟩
abbrev main_c_21 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_22 : Ref sig .tc := ⟨.hbm, 113, rfl⟩
abbrev main_v76 : Ref sig .tc := ⟨.hbm, 114, rfl⟩
abbrev main_v77 : Ref sig .tc := ⟨.hbm, 115, rfl⟩
abbrev main_c_23 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_24 : Ref sig .tc := ⟨.hbm, 122, rfl⟩
abbrev main_v83 : Ref sig .tc := ⟨.hbm, 123, rfl⟩
abbrev main_v84 : Ref sig .tc := ⟨.hbm, 124, rfl⟩
abbrev main_c_25 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_26 : Ref sig .tc := ⟨.hbm, 132, rfl⟩
abbrev main_v91 : Ref sig .tc := ⟨.hbm, 133, rfl⟩
abbrev main_cst_27 : Ref sig .tc := ⟨.hbm, 134, rfl⟩
abbrev main_cst_28 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_v92 : Ref sig .tc := ⟨.hbm, 141, rfl⟩
abbrev main_cst_29 : Ref sig .tc := ⟨.hbm, 142, rfl⟩
abbrev main_v93 : Ref sig .tc := ⟨.hbm, 143, rfl⟩
abbrev main_v94 : Ref sig .tc := ⟨.hbm, 144, rfl⟩
abbrev main_cst_30 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_c_31 : Ref sig .tc := ⟨.hbm, 150, rfl⟩
abbrev main_v99 : Ref sig .tc := ⟨.hbm, 151, rfl⟩
abbrev main_v100 : Ref sig .tc := ⟨.hbm, 152, rfl⟩
abbrev main_c_32 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_33 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_34 : Ref sig .tc := ⟨.hbm, 166, rfl⟩
abbrev main_v112 : Ref sig .tc := ⟨.hbm, 167, rfl⟩
abbrev main_v113 : Ref sig .tc := ⟨.hbm, 168, rfl⟩
abbrev main_c_35 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_36 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_c_37 : Ref sig .tc := ⟨.hbm, 180, rfl⟩
abbrev main_v123 : Ref sig .tc := ⟨.hbm, 181, rfl⟩
abbrev main_v124 : Ref sig .tc := ⟨.hbm, 182, rfl⟩
abbrev main_c_38 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_39 : Ref sig .tc := ⟨.hbm, 189, rfl⟩
abbrev main_v130 : Ref sig .tc := ⟨.hbm, 190, rfl⟩
abbrev main_v131 : Ref sig .tc := ⟨.hbm, 191, rfl⟩
abbrev main_c_40 : Ref sig .tc := ⟨.hbm, 192, rfl⟩
abbrev main_v132 : Ref sig .tc := ⟨.hbm, 193, rfl⟩
abbrev main_v133 : Ref sig .tc := ⟨.hbm, 194, rfl⟩
abbrev main_c_41 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_cst_42 : Ref sig .tc := ⟨.hbm, 201, rfl⟩
abbrev main_v139 : Ref sig .tc := ⟨.hbm, 202, rfl⟩
abbrev main_v140 : Ref sig .tc := ⟨.hbm, 203, rfl⟩
abbrev main_c_43 : Ref sig .tc := ⟨.hbm, 204, rfl⟩
abbrev main_v141 : Ref sig .tc := ⟨.hbm, 205, rfl⟩
abbrev main_v142 : Ref sig .tc := ⟨.hbm, 206, rfl⟩
abbrev main_c_44 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![80], ![false]⟩

def k0_cond1 (i : grid0.Coords) : BitVec 1 :=
  let arg0 : BitVec 32 := BitVec.ofNat 32 (i 0).val
  let c40_i32 : BitVec 32 := 40#32
  let v0 : BitVec 1 := Scalar.cmpi .slt arg0 c40_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c5000_i32 : BitVec 32 := 5000#32
  let v6 : BitVec 32 := Scalar.muli arg0 c5000_i32
  v6
def k0_off1 (i : grid0.Coords) : Fin 2 → Nat :=
  let arg0 : BitVec 32 := BitVec.ofNat 32 (i 0).val
  let c5000_i32 : BitVec 32 := 5000#32
  let v6 : BitVec 32 := Scalar.muli arg0 c5000_i32
  let v7 : BitVec 32 := v6
  let c0_i32_3 : BitVec 32 := 0#32
  ![v7.toNat, 0]
def k0_cond2 (i : grid0.Coords) : BitVec 1 :=
  let arg0 : BitVec 32 := BitVec.ofNat 32 (i 0).val
  let c40_i32_0 : BitVec 32 := 40#32
  let v3 : BitVec 1 := Scalar.cmpi .sge arg0 c40_i32_0
  let v4 : BitVec 32 := Scalar.extui v3
  let c0_i32_1 : BitVec 32 := 0#32
  let v5 : BitVec 1 := Scalar.cmpi .ne v4 c0_i32_1
  v5

def k0_mult2 (i : grid0.Coords) : BitVec 32 :=
  let arg0 : BitVec 32 := BitVec.ofNat 32 (i 0).val
  let c40_i32_2 : BitVec 32 := 40#32
  let v6 : BitVec 32 := Scalar.subi arg0 c40_i32_2
  let c5000_i32 : BitVec 32 := 5000#32
  let v7 : BitVec 32 := Scalar.muli v6 c5000_i32
  v7
def k0_off2 (i : grid0.Coords) : Fin 2 → Nat :=
  let arg0 : BitVec 32 := BitVec.ofNat 32 (i 0).val
  let c40_i32_2 : BitVec 32 := 40#32
  let v6 : BitVec 32 := Scalar.subi arg0 c40_i32_2
  let c5000_i32 : BitVec 32 := 5000#32
  let v7 : BitVec 32 := Scalar.muli v6 c5000_i32
  let v8 : BitVec 32 := v7
  let c0_i32_4 : BitVec 32 := 0#32
  ![v8.toNat, 0]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  shapeCasts_S32x80_S2560 : S32x80.ShapeCasts S2560
  bcast_S_S2560 : S_.BroadcastsInDim S2560 (![] : Fin 0 → Fin S2560.rank)
  bcast_S2560_S2560x1_0 : S2560.BroadcastsInDim S2560x1 (![0] : Fin 1 → Fin S2560x1.rank)
  bcast_S_S24640 : S_.BroadcastsInDim S24640 (![] : Fin 0 → Fin S24640.rank)
  bcast_S24640_S24640x1_0 : S24640.BroadcastsInDim S24640x1 (![0] : Fin 1 → Fin S24640x1.rank)
  reducesTo_S24640x256_S24640_d1 : S24640x256.ReducesTo [1] S24640
  h_S_ : 0 < S_.numel
  bcast_S24640x1_S24640x256_0_1 : S24640x1.BroadcastsInDim S24640x256 (![0, 1] : Fin 2 → Fin S24640x256.rank)
  bcast_S_S24640x256 : S_.BroadcastsInDim S24640x256 (![] : Fin 0 → Fin S24640x256.rank)
  bcast_S_S2560x256 : S_.BroadcastsInDim S2560x256 (![] : Fin 0 → Fin S2560x256.rank)
  bcast_S_S123200 : S_.BroadcastsInDim S123200 (![] : Fin 0 → Fin S123200.rank)
  bcast_S123200_S123200x1_0 : S123200.BroadcastsInDim S123200x1 (![0] : Fin 1 → Fin S123200x1.rank)
  reducesTo_S123200x256_S123200_d1 : S123200x256.ReducesTo [1] S123200
  bcast_S_S123200x1 : S_.BroadcastsInDim S123200x1 (![] : Fin 0 → Fin S123200x1.rank)
  bcast_S123200x1_S123200x256_0_1 : S123200x1.BroadcastsInDim S123200x256 (![0, 1] : Fin 2 → Fin S123200x256.rank)
  inb_S1_S1_0 : ∀ a, (![0] : Fin 1 → Nat) a + S1.size a ≤ S1.size a
  squeezes_S1_S_ : S1.Squeezes S_
  gather_S200000x256_S2560x1_S2560x256_1_0_n_n_0_1_1256_wf : GatherDims.WF S200000x256 S2560x1 S2560x256 [1] [0] [] [0] [] 1 ![1, 256]
  gather_S2560x256_S24640x1_S24640x256_1_0_n_n_0_1_1256_wf : GatherDims.WF S2560x256 S24640x1 S24640x256 [1] [0] [] [0] [] 1 ![1, 256]
  gather_S1202_S24640x1_S24640_n_0_n_n_0_1_1_wf : GatherDims.WF S1202 S24640x1 S24640 [] [0] [] [0] [] 1 ![1]
  scatter_S2560x256_S24640x1_S24640x256_1_0_0_1_wf : ScatterDims.WF S2560x256 S24640x1 S24640x256 [1] [0] [0] 1
  gather_S2560x256_S123200x1_S123200x256_1_0_n_n_0_1_1256_wf : GatherDims.WF S2560x256 S123200x1 S123200x256 [1] [0] [] [0] [] 1 ![1, 256]
  gather_S1202_S123200x1_S123200_n_0_n_n_0_1_1_wf : GatherDims.WF S1202 S123200x1 S123200 [] [0] [] [0] [] 1 ![1]
  scatter_S2560x256_S123200x1_S123200x256_1_0_0_1_wf : ScatterDims.WF S2560x256 S123200x1 S123200x256 [1] [0] [0] 1
  scatter_S200000x256_S2560x1_S2560x256_1_0_0_1_wf : ScatterDims.WF S200000x256 S2560x1 S2560x256 [1] [0] [0] 1
  hcc0_scratch0 : 2 + S1.numel ≤ 3
  hrank0 : 0 < grid0.rank
  k0_mult1_dvd : ∀ i : grid0.Coords, ∀ (k0_h1 : k0_cond1 i = 1#1), 5000 ∣ (k0_mult1 i).toNat
  k0_off1_inb : ∀ i : grid0.Coords, ∀ (k0_h1 : k0_cond1 i = 1#1), ∀ a, (k0_off1 i) a + S5000x256.size a ≤ S200000x256.size a
  k0_mult2_dvd : ∀ i : grid0.Coords, ∀ (k0_h2 : k0_cond2 i = 1#1), 5000 ∣ (k0_mult2 i).toNat
  k0_off2_inb : ∀ i : grid0.Coords, ∀ (k0_h2 : k0_cond2 i = 1#1), ∀ a, (k0_off2 i) a + S5000x256.size a ≤ S200000x256.size a
  hstage0_0 : ∀ j, (stage0_0 j).IsWhole
  nbuf0_0 : grid0.bufCount reads0_0 false = 2
  hreads0_0 : ∀ i i' : grid0.Coords, (∀ a, reads0_0 a = true → i a = i' a) → cc0_transform_2 i = cc0_transform_2 i'
  hinb0_0 : ∀ (i : grid0.Coords) a, (cc0_transform_2 i a + 1) * S5000x256.size a ≤ S400000x256.size a
  hwx0_0 : ∀ i : grid0.Coords, EltTy.bits .f32 = 32 ∨ (Rect.block (s := S400000x256) S5000x256.size (cc0_transform_2 i) (hinb0_0 i)).WholeWords (EltTy.packing .f32)

variable [Facts₀]

abbrev cc0_scratch0 : DmaSems sig S1 := SemArray.consecutive 2 S1 hcc0_scratch0
def gather_S200000x256_S2560x1_S2560x256_1_0_n_n_0_1_1256 : GatherDims S200000x256 S2560x1 S2560x256 where
  offsetDims := [1]
  collapsedSliceDims := [0]
  operandBatchingDims := []
  startIndicesBatchingDims := []
  startIndexMap := [0]
  indexVectorDim := 1
  sliceSizes := ![1, 256]
  wf := gather_S200000x256_S2560x1_S2560x256_1_0_n_n_0_1_1256_wf
def gather_S2560x256_S24640x1_S24640x256_1_0_n_n_0_1_1256 : GatherDims S2560x256 S24640x1 S24640x256 where
  offsetDims := [1]
  collapsedSliceDims := [0]
  operandBatchingDims := []
  startIndicesBatchingDims := []
  startIndexMap := [0]
  indexVectorDim := 1
  sliceSizes := ![1, 256]
  wf := gather_S2560x256_S24640x1_S24640x256_1_0_n_n_0_1_1256_wf
def gather_S1202_S24640x1_S24640_n_0_n_n_0_1_1 : GatherDims S1202 S24640x1 S24640 where
  offsetDims := []
  collapsedSliceDims := [0]
  operandBatchingDims := []
  startIndicesBatchingDims := []
  startIndexMap := [0]
  indexVectorDim := 1
  sliceSizes := ![1]
  wf := gather_S1202_S24640x1_S24640_n_0_n_n_0_1_1_wf
def scatter_S2560x256_S24640x1_S24640x256_1_0_0_1 : ScatterDims S2560x256 S24640x1 S24640x256 where
  updateWindowDims := [1]
  insertedWindowDims := [0]
  scatterDimsToOperandDims := [0]
  indexVectorDim := 1
  wf := scatter_S2560x256_S24640x1_S24640x256_1_0_0_1_wf
def gather_S2560x256_S123200x1_S123200x256_1_0_n_n_0_1_1256 : GatherDims S2560x256 S123200x1 S123200x256 where
  offsetDims := [1]
  collapsedSliceDims := [0]
  operandBatchingDims := []
  startIndicesBatchingDims := []
  startIndexMap := [0]
  indexVectorDim := 1
  sliceSizes := ![1, 256]
  wf := gather_S2560x256_S123200x1_S123200x256_1_0_n_n_0_1_1256_wf
def gather_S1202_S123200x1_S123200_n_0_n_n_0_1_1 : GatherDims S1202 S123200x1 S123200 where
  offsetDims := []
  collapsedSliceDims := [0]
  operandBatchingDims := []
  startIndicesBatchingDims := []
  startIndexMap := [0]
  indexVectorDim := 1
  sliceSizes := ![1]
  wf := gather_S1202_S123200x1_S123200_n_0_n_n_0_1_1_wf
def scatter_S2560x256_S123200x1_S123200x256_1_0_0_1 : ScatterDims S2560x256 S123200x1 S123200x256 where
  updateWindowDims := [1]
  insertedWindowDims := [0]
  scatterDimsToOperandDims := [0]
  indexVectorDim := 1
  wf := scatter_S2560x256_S123200x1_S123200x256_1_0_0_1_wf
def scatter_S200000x256_S2560x1_S2560x256_1_0_0_1 : ScatterDims S200000x256 S2560x1 S2560x256 where
  updateWindowDims := [1]
  insertedWindowDims := [0]
  scatterDimsToOperandDims := [0]
  indexVectorDim := 1
  wf := scatter_S200000x256_S2560x1_S2560x256_1_0_0_1_wf

abbrev win0_0 : Pipeline.Window sig grid0 :=
  Pipeline.Window.ofSpec (Memref.whole main_v148) S5000x256.size cc0_transform_2 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

abbrev idle0 : Fin 1 → grid0.Coords → Bool := fun | 0 => fun i => !(k0_cond1 i == 1#1) && !(k0_cond2 i == 1#1) | ⟨_ + 1, h⟩ => absurd h (Nat.not_lt.2 (Nat.le_add_left _ _))

class Facts : Prop extends Facts₀ where

variable [Facts]
-- ==== ReferenceIdeal.lean ====
abbrev S32x80 : Shape := ⟨2, ![32, 80]⟩
abbrev S200000x256 : Shape := ⟨2, ![200000, 256]⟩
abbrev S1202 : Shape := ⟨1, ![1202]⟩
abbrev S24640 : Shape := ⟨1, ![24640]⟩
abbrev S123200 : Shape := ⟨1, ![123200]⟩
abbrev S2560 : Shape := ⟨1, ![2560]⟩
abbrev S_ : Shape := ⟨0, ![]⟩
abbrev S2560x1 : Shape := ⟨2, ![2560, 1]⟩
abbrev S2560x256 : Shape := ⟨2, ![2560, 256]⟩
abbrev S24640x1 : Shape := ⟨2, ![24640, 1]⟩
abbrev S24640x256 : Shape := ⟨2, ![24640, 256]⟩
abbrev S123200x1 : Shape := ⟨2, ![123200, 1]⟩
abbrev S123200x256 : Shape := ⟨2, ![123200, 256]⟩
abbrev S400000x256 : Shape := ⟨2, ![400000, 256]⟩

abbrev nBuf : Space → Nat
  | .hbm => 214
  | .vmem => 0
  | .smem => 0
  | _ => 0

abbrev hbmTy0_0 (i : Nat) : BufTy := match i % 128 with
  | 0 => ⟨S32x80, .i32⟩
  | 1 => ⟨S200000x256, .f32⟩
  | 2 => ⟨S200000x256, .f32⟩
  | 3 => ⟨S1202, .f32⟩
  | 4 => ⟨S24640, .i32⟩
  | 5 => ⟨S24640, .i32⟩
  | 6 => ⟨S123200, .i32⟩
  | 7 => ⟨S123200, .i32⟩
  | 8 => ⟨S2560, .i32⟩
  | 9 => ⟨S_, .i32⟩
  | 10 => ⟨S2560, .i32⟩
  | 11 => ⟨S2560, .i1⟩
  | 12 => ⟨S_, .i32⟩
  | 13 => ⟨S2560, .i32⟩
  | 14 => ⟨S2560, .i32⟩
  | 15 => ⟨S2560, .i32⟩
  | 16 => ⟨S2560x1, .i32⟩
  | 17 => ⟨S2560x256, .f32⟩
  | 18 => ⟨S_, .i32⟩
  | 19 => ⟨S2560, .i32⟩
  | 20 => ⟨S2560, .i1⟩
  | 21 => ⟨S_, .i32⟩
  | 22 => ⟨S2560, .i32⟩
  | 23 => ⟨S2560, .i32⟩
  | 24 => ⟨S2560, .i32⟩
  | 25 => ⟨S2560x1, .i32⟩
  | 26 => ⟨S2560x256, .f32⟩
  | 27 => ⟨S_, .i32⟩
  | 28 => ⟨S24640, .i32⟩
  | 29 => ⟨S24640, .i1⟩
  | 30 => ⟨S_, .i32⟩
  | 31 => ⟨S24640, .i32⟩
  | 32 => ⟨S24640, .i32⟩
  | 33 => ⟨S24640, .i32⟩
  | 34 => ⟨S24640x1, .i32⟩
  | 35 => ⟨S24640x256, .f32⟩
  | 36 => ⟨S_, .i32⟩
  | 37 => ⟨S24640, .i32⟩
  | 38 => ⟨S24640, .i1⟩
  | 39 => ⟨S_, .i32⟩
  | 40 => ⟨S24640, .i32⟩
  | 41 => ⟨S24640, .i32⟩
  | 42 => ⟨S24640, .i32⟩
  | 43 => ⟨S24640x1, .i32⟩
  | 44 => ⟨S24640x256, .f32⟩
  | 45 => ⟨S24640x256, .f32⟩
  | 46 => ⟨S_, .f32⟩
  | 47 => ⟨S24640, .f32⟩
  | 48 => ⟨S_, .f32⟩
  | 49 => ⟨S_, .f32⟩
  | 50 => ⟨S_, .f32⟩
  | 51 => ⟨S24640, .f32⟩
  | 52 => ⟨S24640, .f32⟩
  | 53 => ⟨S_, .f32⟩
  | 54 => ⟨S24640, .f32⟩
  | 55 => ⟨S24640, .f32⟩
  | 56 => ⟨S_, .f32⟩
  | 57 => ⟨S24640, .f32⟩
  | 58 => ⟨S24640, .f32⟩
  | 59 => ⟨S_, .f32⟩
  | 60 => ⟨S24640, .f32⟩
  | 61 => ⟨S24640, .f32⟩
  | 62 => ⟨S24640, .f32⟩
  | 63 => ⟨S24640, .i32⟩
  | 64 => ⟨S_, .i32⟩
  | 65 => ⟨S24640, .i32⟩
  | 66 => ⟨S24640, .i1⟩
  | 67 => ⟨S_, .i32⟩
  | 68 => ⟨S24640, .i32⟩
  | 69 => ⟨S24640, .i32⟩
  | 70 => ⟨S24640, .i32⟩
  | 71 => ⟨S24640x1, .i32⟩
  | 72 => ⟨S24640, .f32⟩
  | 73 => ⟨S_, .f32⟩
  | 74 => ⟨S24640, .f32⟩
  | 75 => ⟨S24640, .f32⟩
  | 76 => ⟨S24640x1, .f32⟩
  | 77 => ⟨S24640x256, .f32⟩
  | 78 => ⟨S24640x256, .f32⟩
  | 79 => ⟨S24640x256, .f32⟩
  | 80 => ⟨S_, .f32⟩
  | 81 => ⟨S24640x256, .f32⟩
  | 82 => ⟨S24640x256, .f32⟩
  | 83 => ⟨S24640x256, .f32⟩
  | 84 => ⟨S24640x256, .f32⟩
  | 85 => ⟨S24640x256, .f32⟩
  | 86 => ⟨S24640x256, .f32⟩
  | 87 => ⟨S_, .f32⟩
  | 88 => ⟨S24640x256, .f32⟩
  | 89 => ⟨S24640x256, .f32⟩
  | 90 => ⟨S24640x256, .f32⟩
  | 91 => ⟨S_, .f32⟩
  | 92 => ⟨S2560x256, .f32⟩
  | 93 => ⟨S_, .i32⟩
  | 94 => ⟨S24640, .i32⟩
  | 95 => ⟨S24640, .i1⟩
  | 96 => ⟨S_, .i32⟩
  | 97 => ⟨S24640, .i32⟩
  | 98 => ⟨S24640, .i32⟩
  | 99 => ⟨S24640, .i32⟩
  | 100 => ⟨S24640x1, .i32⟩
  | 101 => ⟨S2560x256, .f32⟩
  | 102 => ⟨S_, .f32⟩
  | 103 => ⟨S2560x256, .f32⟩
  | 104 => ⟨S_, .i32⟩
  | 105 => ⟨S24640, .i32⟩
  | 106 => ⟨S24640, .i1⟩
  | 107 => ⟨S_, .i32⟩
  | 108 => ⟨S24640, .i32⟩
  | 109 => ⟨S24640, .i32⟩
  | 110 => ⟨S24640, .i32⟩
  | 111 => ⟨S24640x1, .i32⟩
  | 112 => ⟨S2560x256, .f32⟩
  | 113 => ⟨S_, .i32⟩
  | 114 => ⟨S123200, .i32⟩
  | 115 => ⟨S123200, .i1⟩
  | 116 => ⟨S_, .i32⟩
  | 117 => ⟨S123200, .i32⟩
  | 118 => ⟨S123200, .i32⟩
  | 119 => ⟨S123200, .i32⟩
  | 120 => ⟨S123200x1, .i32⟩
  | 121 => ⟨S123200x256, .f32⟩
  | 122 => ⟨S_, .i32⟩
  | 123 => ⟨S123200, .i32⟩
  | 124 => ⟨S123200, .i1⟩
  | 125 => ⟨S_, .i32⟩
  | 126 => ⟨S123200, .i32⟩
  | 127 => ⟨S123200, .i32⟩
  | _ => ⟨S32x80, .i32⟩

abbrev hbmTy0_1 (i : Nat) : BufTy := match i % 128 with
  | 0 => ⟨S123200, .i32⟩
  | 1 => ⟨S123200x1, .i32⟩
  | 2 => ⟨S123200x256, .f32⟩
  | 3 => ⟨S123200x256, .f32⟩
  | 4 => ⟨S_, .f32⟩
  | 5 => ⟨S123200, .f32⟩
  | 6 => ⟨S_, .f32⟩
  | 7 => ⟨S_, .f32⟩
  | 8 => ⟨S_, .f32⟩
  | 9 => ⟨S123200, .f32⟩
  | 10 => ⟨S123200, .f32⟩
  | 11 => ⟨S_, .f32⟩
  | 12 => ⟨S123200, .f32⟩
  | 13 => ⟨S123200, .f32⟩
  | 14 => ⟨S_, .f32⟩
  | 15 => ⟨S123200, .f32⟩
  | 16 => ⟨S123200, .f32⟩
  | 17 => ⟨S_, .f32⟩
  | 18 => ⟨S123200, .f32⟩
  | 19 => ⟨S123200, .f32⟩
  | 20 => ⟨S123200, .f32⟩
  | 21 => ⟨S123200, .i32⟩
  | 22 => ⟨S_, .i32⟩
  | 23 => ⟨S123200, .i32⟩
  | 24 => ⟨S123200, .i1⟩
  | 25 => ⟨S_, .i32⟩
  | 26 => ⟨S123200, .i32⟩
  | 27 => ⟨S123200, .i32⟩
  | 28 => ⟨S123200, .i32⟩
  | 29 => ⟨S123200x1, .i32⟩
  | 30 => ⟨S123200, .f32⟩
  | 31 => ⟨S123200, .f32⟩
  | 32 => ⟨S123200x1, .f32⟩
  | 33 => ⟨S_, .f32⟩
  | 34 => ⟨S123200x1, .f32⟩
  | 35 => ⟨S123200x1, .f32⟩
  | 36 => ⟨S123200x256, .f32⟩
  | 37 => ⟨S123200x256, .f32⟩
  | 38 => ⟨S_, .i32⟩
  | 39 => ⟨S123200, .i32⟩
  | 40 => ⟨S123200, .i1⟩
  | 41 => ⟨S_, .i32⟩
  | 42 => ⟨S123200, .i32⟩
  | 43 => ⟨S123200, .i32⟩
  | 44 => ⟨S123200, .i32⟩
  | 45 => ⟨S123200x1, .i32⟩
  | 46 => ⟨S2560x256, .f32⟩
  | 47 => ⟨S_, .f32⟩
  | 48 => ⟨S123200x1, .f32⟩
  | 49 => ⟨S123200x1, .f32⟩
  | 50 => ⟨S123200x256, .f32⟩
  | 51 => ⟨S123200x256, .f32⟩
  | 52 => ⟨S_, .i32⟩
  | 53 => ⟨S123200, .i32⟩
  | 54 => ⟨S123200, .i1⟩
  | 55 => ⟨S_, .i32⟩
  | 56 => ⟨S123200, .i32⟩
  | 57 => ⟨S123200, .i32⟩
  | 58 => ⟨S123200, .i32⟩
  | 59 => ⟨S123200x1, .i32⟩
  | 60 => ⟨S2560x256, .f32⟩
  | 61 => ⟨S_, .f32⟩
  | 62 => ⟨S2560x256, .f32⟩
  | 63 => ⟨S2560x256, .f32⟩
  | 64 => ⟨S_, .i32⟩
  | 65 => ⟨S2560, .i32⟩
  | 66 => ⟨S2560, .i1⟩
  | 67 => ⟨S_, .i32⟩
  | 68 => ⟨S2560, .i32⟩
  | 69 => ⟨S2560, .i32⟩
  | 70 => ⟨S2560, .i32⟩
  | 71 => ⟨S2560x1, .i32⟩
  | 72 => ⟨S200000x256, .f32⟩
  | 73 => ⟨S_, .f32⟩
  | 74 => ⟨S2560x256, .f32⟩
  | 75 => ⟨S2560x256, .f32⟩
  | 76 => ⟨S_, .i32⟩
  | 77 => ⟨S2560, .i32⟩
  | 78 => ⟨S2560, .i1⟩
  | 79 => ⟨S_, .i32⟩
  | 80 => ⟨S2560, .i32⟩
  | 81 => ⟨S2560, .i32⟩
  | 82 => ⟨S2560, .i32⟩
  | 83 => ⟨S2560x1, .i32⟩
  | 84 => ⟨S200000x256, .f32⟩
  | 85 => ⟨S400000x256, .f32⟩
  | _ => ⟨S32x80, .i32⟩

abbrev hbmTy (i : Nat) : BufTy := match i / 128 with
  | 0 => hbmTy0_0 i
  | 1 => hbmTy0_1 i
  | _ => ⟨S32x80, .i32⟩

abbrev bufTy : (tb : Table) → Fin (tcTables nBuf tb) → BufTy
  | .hbm, ⟨i, _⟩ => hbmTy i
  | _, _ => ⟨S32x80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_cst_7 : Ref sig .tc := ⟨.hbm, 48, rfl⟩
abbrev main_cst_8 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_c_12 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_14 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_16 : Ref sig .tc := ⟨.hbm, 91, rfl⟩
abbrev main_v60 : Ref sig .tc := ⟨.hbm, 92, rfl⟩
abbrev main_c_17 : Ref sig .tc := ⟨.hbm, 93, rfl⟩
abbrev main_v61 : Ref sig .tc := ⟨.hbm, 94, rfl⟩
abbrev main_v62 : Ref sig .tc := ⟨.hbm, 95, rfl⟩
abbrev main_c_18 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_19 : Ref sig .tc := ⟨.hbm, 102, rfl⟩
abbrev main_v68 : Ref sig .tc := ⟨.hbm, 103, rfl⟩
abbrev main_c_20 : Ref sig .tc := ⟨.hbm, 104, rfl⟩
abbrev main_v69 : Ref sig .tc := ⟨.hbm, 105, rfl⟩
abbrev main_v70 : Ref sig .tc := ⟨.hbm, 106, rfl⟩
abbrev main_c_21 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_22 : Ref sig .tc := ⟨.hbm, 113, rfl⟩
abbrev main_v76 : Ref sig .tc := ⟨.hbm, 114, rfl⟩
abbrev main_v77 : Ref sig .tc := ⟨.hbm, 115, rfl⟩
abbrev main_c_23 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_24 : Ref sig .tc := ⟨.hbm, 122, rfl⟩
abbrev main_v83 : Ref sig .tc := ⟨.hbm, 123, rfl⟩
abbrev main_v84 : Ref sig .tc := ⟨.hbm, 124, rfl⟩
abbrev main_c_25 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_26 : Ref sig .tc := ⟨.hbm, 132, rfl⟩
abbrev main_v91 : Ref sig .tc := ⟨.hbm, 133, rfl⟩
abbrev main_cst_27 : Ref sig .tc := ⟨.hbm, 134, rfl⟩
abbrev main_cst_28 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_v92 : Ref sig .tc := ⟨.hbm, 141, rfl⟩
abbrev main_cst_29 : Ref sig .tc := ⟨.hbm, 142, rfl⟩
abbrev main_v93 : Ref sig .tc := ⟨.hbm, 143, rfl⟩
abbrev main_v94 : Ref sig .tc := ⟨.hbm, 144, rfl⟩
abbrev main_cst_30 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_c_31 : Ref sig .tc := ⟨.hbm, 150, rfl⟩
abbrev main_v99 : Ref sig .tc := ⟨.hbm, 151, rfl⟩
abbrev main_v100 : Ref sig .tc := ⟨.hbm, 152, rfl⟩
abbrev main_c_32 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_33 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_34 : Ref sig .tc := ⟨.hbm, 166, rfl⟩
abbrev main_v112 : Ref sig .tc := ⟨.hbm, 167, rfl⟩
abbrev main_v113 : Ref sig .tc := ⟨.hbm, 168, rfl⟩
abbrev main_c_35 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_36 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_c_37 : Ref sig .tc := ⟨.hbm, 180, rfl⟩
abbrev main_v123 : Ref sig .tc := ⟨.hbm, 181, rfl⟩
abbrev main_v124 : Ref sig .tc := ⟨.hbm, 182, rfl⟩
abbrev main_c_38 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_39 : Ref sig .tc := ⟨.hbm, 189, rfl⟩
abbrev main_v130 : Ref sig .tc := ⟨.hbm, 190, rfl⟩
abbrev main_v131 : Ref sig .tc := ⟨.hbm, 191, rfl⟩
abbrev main_c_40 : Ref sig .tc := ⟨.hbm, 192, rfl⟩
abbrev main_v132 : Ref sig .tc := ⟨.hbm, 193, rfl⟩
abbrev main_v133 : Ref sig .tc := ⟨.hbm, 194, rfl⟩
abbrev main_c_41 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_cst_42 : Ref sig .tc := ⟨.hbm, 201, rfl⟩
abbrev main_v139 : Ref sig .tc := ⟨.hbm, 202, rfl⟩
abbrev main_v140 : Ref sig .tc := ⟨.hbm, 203, rfl⟩
abbrev main_c_43 : Ref sig .tc := ⟨.hbm, 204, rfl⟩
abbrev main_v141 : Ref sig .tc := ⟨.hbm, 205, rfl⟩
abbrev main_v142 : Ref sig .tc := ⟨.hbm, 206, rfl⟩
abbrev main_c_44 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩

abbrev nD : Nat := 1
abbrev τ : Topo := Topo.v7x

variable {F : FTy → Type} [FloatOps F]

class Facts₀ : Prop where
  shapeCasts_S32x80_S2560 : S32x80.ShapeCasts S2560
  bcast_S_S2560 : S_.BroadcastsInDim S2560 (![] : Fin 0 → Fin S2560.rank)
  bcast_S2560_S2560x1_0 : S2560.BroadcastsInDim S2560x1 (![0] : Fin 1 → Fin S2560x1.rank)
  bcast_S_S24640 : S_.BroadcastsInDim S24640 (![] : Fin 0 → Fin S24640.rank)
  bcast_S24640_S24640x1_0 : S24640.BroadcastsInDim S24640x1 (![0] : Fin 1 → Fin S24640x1.rank)
  reducesTo_S24640x256_S24640_d1 : S24640x256.ReducesTo [1] S24640
  h_S_ : 0 < S_.numel
  bcast_S24640x1_S24640x256_0_1 : S24640x1.BroadcastsInDim S24640x256 (![0, 1] : Fin 2 → Fin S24640x256.rank)
  bcast_S_S24640x256 : S_.BroadcastsInDim S24640x256 (![] : Fin 0 → Fin S24640x256.rank)
  bcast_S_S2560x256 : S_.BroadcastsInDim S2560x256 (![] : Fin 0 → Fin S2560x256.rank)
  bcast_S_S123200 : S_.BroadcastsInDim S123200 (![] : Fin 0 → Fin S123200.rank)
  bcast_S123200_S123200x1_0 : S123200.BroadcastsInDim S123200x1 (![0] : Fin 1 → Fin S123200x1.rank)
  reducesTo_S123200x256_S123200_d1 : S123200x256.ReducesTo [1] S123200
  bcast_S_S123200x1 : S_.BroadcastsInDim S123200x1 (![] : Fin 0 → Fin S123200x1.rank)
  bcast_S123200x1_S123200x256_0_1 : S123200x1.BroadcastsInDim S123200x256 (![0, 1] : Fin 2 → Fin S123200x256.rank)
  concatenates_S200000x256_S200000x256_S400000x256_d0 : Shape.Concatenates [S200000x256, S200000x256] S400000x256 0
  gather_S200000x256_S2560x1_S2560x256_1_0_n_n_0_1_1256_wf : GatherDims.WF S200000x256 S2560x1 S2560x256 [1] [0] [] [0] [] 1 ![1, 256]
  gather_S2560x256_S24640x1_S24640x256_1_0_n_n_0_1_1256_wf : GatherDims.WF S2560x256 S24640x1 S24640x256 [1] [0] [] [0] [] 1 ![1, 256]
  gather_S1202_S24640x1_S24640_n_0_n_n_0_1_1_wf : GatherDims.WF S1202 S24640x1 S24640 [] [0] [] [0] [] 1 ![1]
  scatter_S2560x256_S24640x1_S24640x256_1_0_0_1_wf : ScatterDims.WF S2560x256 S24640x1 S24640x256 [1] [0] [0] 1
  gather_S2560x256_S123200x1_S123200x256_1_0_n_n_0_1_1256_wf : GatherDims.WF S2560x256 S123200x1 S123200x256 [1] [0] [] [0] [] 1 ![1, 256]
  gather_S1202_S123200x1_S123200_n_0_n_n_0_1_1_wf : GatherDims.WF S1202 S123200x1 S123200 [] [0] [] [0] [] 1 ![1]
  scatter_S2560x256_S123200x1_S123200x256_1_0_0_1_wf : ScatterDims.WF S2560x256 S123200x1 S123200x256 [1] [0] [0] 1
  scatter_S200000x256_S2560x1_S2560x256_1_0_0_1_wf : ScatterDims.WF S200000x256 S2560x1 S2560x256 [1] [0] [0] 1

variable [Facts₀]

def gather_S200000x256_S2560x1_S2560x256_1_0_n_n_0_1_1256 : GatherDims S200000x256 S2560x1 S2560x256 where
  offsetDims := [1]
  collapsedSliceDims := [0]
  operandBatchingDims := []
  startIndicesBatchingDims := []
  startIndexMap := [0]
  indexVectorDim := 1
  sliceSizes := ![1, 256]
  wf := gather_S200000x256_S2560x1_S2560x256_1_0_n_n_0_1_1256_wf
def gather_S2560x256_S24640x1_S24640x256_1_0_n_n_0_1_1256 : GatherDims S2560x256 S24640x1 S24640x256 where
  offsetDims := [1]
  collapsedSliceDims := [0]
  operandBatchingDims := []
  startIndicesBatchingDims := []
  startIndexMap := [0]
  indexVectorDim := 1
  sliceSizes := ![1, 256]
  wf := gather_S2560x256_S24640x1_S24640x256_1_0_n_n_0_1_1256_wf
def gather_S1202_S24640x1_S24640_n_0_n_n_0_1_1 : GatherDims S1202 S24640x1 S24640 where
  offsetDims := []
  collapsedSliceDims := [0]
  operandBatchingDims := []
  startIndicesBatchingDims := []
  startIndexMap := [0]
  indexVectorDim := 1
  sliceSizes := ![1]
  wf := gather_S1202_S24640x1_S24640_n_0_n_n_0_1_1_wf
def scatter_S2560x256_S24640x1_S24640x256_1_0_0_1 : ScatterDims S2560x256 S24640x1 S24640x256 where
  updateWindowDims := [1]
  insertedWindowDims := [0]
  scatterDimsToOperandDims := [0]
  indexVectorDim := 1
  wf := scatter_S2560x256_S24640x1_S24640x256_1_0_0_1_wf
def gather_S2560x256_S123200x1_S123200x256_1_0_n_n_0_1_1256 : GatherDims S2560x256 S123200x1 S123200x256 where
  offsetDims := [1]
  collapsedSliceDims := [0]
  operandBatchingDims := []
  startIndicesBatchingDims := []
  startIndexMap := [0]
  indexVectorDim := 1
  sliceSizes := ![1, 256]
  wf := gather_S2560x256_S123200x1_S123200x256_1_0_n_n_0_1_1256_wf
def gather_S1202_S123200x1_S123200_n_0_n_n_0_1_1 : GatherDims S1202 S123200x1 S123200 where
  offsetDims := []
  collapsedSliceDims := [0]
  operandBatchingDims := []
  startIndicesBatchingDims := []
  startIndexMap := [0]
  indexVectorDim := 1
  sliceSizes := ![1]
  wf := gather_S1202_S123200x1_S123200_n_0_n_n_0_1_1_wf
def scatter_S2560x256_S123200x1_S123200x256_1_0_0_1 : ScatterDims S2560x256 S123200x1 S123200x256 where
  updateWindowDims := [1]
  insertedWindowDims := [0]
  scatterDimsToOperandDims := [0]
  indexVectorDim := 1
  wf := scatter_S2560x256_S123200x1_S123200x256_1_0_0_1_wf
def scatter_S200000x256_S2560x1_S2560x256_1_0_0_1 : ScatterDims S200000x256 S2560x1 S2560x256 where
  updateWindowDims := [1]
  insertedWindowDims := [0]
  scatterDimsToOperandDims := [0]
  indexVectorDim := 1
  wf := scatter_S200000x256_S2560x1_S2560x256_1_0_0_1_wf

class Facts : Prop extends Facts₀ where

variable [Facts]
-- ==== Proof.KSetup.lean ====
/-
  The copy kernel's region, prepared for its frame run. At every grid point the body starts ONE transfer of a
  5000-row slab of one of the two tables left in HBM into the output window's staging buffer, on the kernel's one
  DMA semaphore, and waits for it before the point ends. So between points nothing is in flight: the semaphore's
  cell is at zero and the two tables are whole at the contents the region found them with. This module states that
  invariant conjunct by conjunct, the host lines before the region at the transfer-counting algebra, and the frame
  claim's post read off a frame run.
-/
import proofs.«100145_j46170898432330_2_alg».proof.Proof.Gen.Kernel.Frame
import proofs.«100145_j46170898432330_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines before the region, at the algebra that counts the body's transfers -/

/-- @main is its five lines of host operations, then the region: the buffers the region finds are `Gen.V`. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The memrefs the body is called with -/

/-- The output window's current staging buffer at point `t`, and that it is a whole buffer. -/
abbrev ms (t : Fin cfg0.N) : Memref sig .tc .vmem S5000x256 .f32 := win0_0.stage (cfg0.slots t 0)
abbrev hs (t : Fin cfg0.N) : (ms t).IsWhole := hstage0_0 ((cfg0.slots t 0).cast nbuf0_0)
/-- The two updated tables, left in HBM, whole. -/
abbrev tabU : Memref sig .tc .hbm S200000x256 .f32 := Memref.whole main_v138
abbrev tabV : Memref sig .tc .hbm S200000x256 .f32 := Memref.whole main_v147
/-- A memref's buffer on core `c`: its contents type, and the buffer held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-! ## The kernel's own semaphore and the tables it reads -/

/-- The body's one DMA semaphore cell (number 2 of the pool: the window's two staging cells come first). -/
abbrev osem0 : Fin 1 → SemLoc sig := fun _ => SemLoc.dma 2
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0) := by
  rw [Pipeline.ownSems0_eq_of_list c osem0 [0] (by decide) (by decide)]; rfl

/-- The two tables as references: unscoped, and no window's array. -/
def H0 : Finset (Ref sig .tc) := {main_v138, main_v147}
theorem H0_sub : H0 ⊆ Pipeline.restRefs sig spec0 := by
  intro b hb
  simp only [H0, Finset.mem_insert, Finset.mem_singleton] at hb
  rcases hb with rfl | rfl <;> exact Pipeline.mem_restRefs_of _ (by decide) (by decide)
theorem hbmPts0_eq (c : Dev nD) :
    (bigSep H0 (fun b => ((c : Thread nD τ).loc b) ↦{fullShare} V m c b) : sProp 𝕄)
      = iprop(hbPt c tabU (V m c main_v138) ∗ hbPt c tabV (V m c main_v147)) := by
  rw [BI.bigSep_eq_bigSepL_of_eq [main_v138, main_v147] (by decide) (by decide)]; rfl

/-- The region's invariant, conjunct by conjunct: no scratch buffer, the generator register at some state, the
    semaphore cell at zero, the two tables whole at the contents the region found. -/
theorem PhiD0_eq (c : Dev nD) :
    (Pipeline.ΦD osem0 spec0 H0 (V m) c : sProp 𝕄)
      = iprop((BI.emp : sProp 𝕄) ∗ (∃ r, prngReg c r) ∗ iprop(semVal ((c : Thread nD τ), SemLoc.dma 2) 0)
          ∗ iprop(hbPt c tabU (V m c main_v138) ∗ hbPt c tabV (V m c main_v147))) := by
  rw [Pipeline.ΦD_eq, scopedRest0_eq, ownSems00_eq, hbmPts0_eq]

/-! ## The frame claim's post from a frame run -/

/-- A run that ends with every buffer outside the window's array as the region found it ends with the eight
    argument arrays as launched: no host line writes an argument. -/
theorem frame_ofD (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

end Cert.Kernel.Hand

end
-- ==== Proof.KRuns.lean ====
/-
  The copy kernel's body at one grid point, run symbolically. A point of the first half of the grid copies a
  5000-row slab of the first table into the output window's staging buffer and waits for the copy; a point of
  the second half does the same with the second table. Either way the staging buffer ends holding exactly the
  slab (a whole-buffer write reads back as its payload), the semaphore's cell is back at zero, and the tables,
  only read, are as they were.
-/
import proofs.«100145_j46170898432330_2_alg».proof.Proof.KSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body at one grid point -/

/-- The 5000-row slab of the first table that a point of the first half of the grid copies, and of the second table
    for a point of the second half: the tables' slices at the offsets the body computes. -/
abbrev slabU (i : grid0.Coords) (h1 : k0_cond1 i = 1#1) : Memref sig .tc .hbm S5000x256 .f32 :=
  tabU.slice (Rect.unit (s := S200000x256) (k0_off1 i) S5000x256.size (k0_off1_inb i h1)) (fun _ => rfl)
abbrev slabV (i : grid0.Coords) (h2 : k0_cond2 i = 1#1) : Memref sig .tc .hbm S5000x256 .f32 :=
  tabV.slice (Rect.unit (s := S200000x256) (k0_off2 i) S5000x256.size (k0_off2_inb i h2)) (fun _ => rfl)

/-- A point of the first half: the body starts the copy of the first table's slab into the staging buffer and
    waits for it. The buffer ends holding the slab, whatever it held; the semaphore's cell is back at zero and both
    tables are as they were. -/
theorem runA (c : Dev nD) (i : grid0.Coords) (h1 : k0_cond1 i = 1#1) (h2 : ¬ k0_cond2 i = 1#1)
    (arg3 : Memref sig .tc .vmem S5000x256 .f32) (harg3 : arg3.IsWhole)
    (fu : HbBuf (F := F) c tabU) (fv : HbBuf (F := F) c tabV) (W : Waits sig Unit) (K : PUnit → sProp 𝕄) :
    iprop((∃ d, owns (c : Thread nD τ) arg3 fullShare d) ∗ semVal ((c : Thread nD τ), SemLoc.dma 2) 0 ∗ hbPt c tabU fu ∗ hbPt c tabV fv ∗ owes (c : Thread nD τ) 0 W
        ∗ (iprop(owns (c : Thread nD τ) arg3 fullShare ((slabU i h1).view.read (Elt F) fu) ∗ semVal ((c : Thread nD τ), SemLoc.dma 2) 0 ∗ hbPt c tabU fu ∗ hbPt c tabV fv ∗ (∃ W', owes (c : Thread nD τ) 0 W')) -∗ K ⟨⟩))
      ⊢ wp frame (wpE (defs₀ (F := F)) Variants.none c none) Set.univ (cc0__concat_kernel i tabU (Memref.isWhole_whole _) tabV (Memref.isWhole_whole _) arg3 harg3 cc0_scratch0) K := by
  simp only [cc0__concat_kernel_eq_skeleton]; unfold cc0__concat_kernel_skel
  unfold owns
  iintro ⟨⟨%d1, %f1, -, H1⟩, Hq, Hu, Hv, HW, Hk⟩
  rw [dif_pos h1, dif_neg h2]
  sl_exec
  sl_step
  iapply Hk
  isplitl [H1]
  · iexists _; isplitr; swap; · iexact H1
    ipureintro; exact View.read_writes_whole _ _ _
  isplitl [Hq]; · iexact Hq
  isplitl [Hu]; · iexact Hu
  isplitl [Hv]; · iexact Hv
  iexists _; iexact HW

/-- A point of the second half: the same with the second table's slab. -/
theorem runB (c : Dev nD) (i : grid0.Coords) (h1 : ¬ k0_cond1 i = 1#1) (h2 : k0_cond2 i = 1#1)
    (arg3 : Memref sig .tc .vmem S5000x256 .f32) (harg3 : arg3.IsWhole)
    (fu : HbBuf (F := F) c tabU) (fv : HbBuf (F := F) c tabV) (W : Waits sig Unit) (K : PUnit → sProp 𝕄) :
    iprop((∃ d, owns (c : Thread nD τ) arg3 fullShare d) ∗ semVal ((c : Thread nD τ), SemLoc.dma 2) 0 ∗ hbPt c tabU fu ∗ hbPt c tabV fv ∗ owes (c : Thread nD τ) 0 W
        ∗ (iprop(owns (c : Thread nD τ) arg3 fullShare ((slabV i h2).view.read (Elt F) fv) ∗ semVal ((c : Thread nD τ), SemLoc.dma 2) 0 ∗ hbPt c tabU fu ∗ hbPt c tabV fv ∗ (∃ W', owes (c : Thread nD τ) 0 W')) -∗ K ⟨⟩))
      ⊢ wp frame (wpE (defs₀ (F := F)) Variants.none c none) Set.univ (cc0__concat_kernel i tabU (Memref.isWhole_whole _) tabV (Memref.isWhole_whole _) arg3 harg3 cc0_scratch0) K := by
  simp only [cc0__concat_kernel_eq_skeleton]; unfold cc0__concat_kernel_skel
  unfold owns
  iintro ⟨⟨%d1, %f1, -, H1⟩, Hq, Hu, Hv, HW, Hk⟩
  rw [dif_neg h1, dif_pos h2]
  sl_exec
  sl_step
  iapply Hk
  isplitl [H1]
  · iexists _; isplitr; swap; · iexact H1
    ipureintro; exact View.read_writes_whole _ _ _
  isplitl [Hq]; · iexact Hq
  isplitl [Hu]; · iexact Hu
  isplitl [Hv]; · iexact Hv
  iexists _; iexact HW

end Cert.Kernel.Hand

end
-- ==== Proof.KFrame.lean ====
/-
  The frame of the copy kernel's program: the proof data of its one pipeline (after the body at point t the
  staging buffer holds the slab the point copies), the body obligation from the two runs (every point makes
  exactly one of the two copies, so the output window is never idle), the frame run for a body that drains its
  own transfers within each point, and the frame claim: @main terminates, faults nowhere and leaves its eight
  argument arrays unchanged.
-/
import proofs.«100145_j46170898432330_2_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Which copy a point makes -/

/-- Every grid point makes exactly one of the two copies: the first 40 points the first table's, the other 40 the
    second's (decided over the 80 points). -/
theorem cond_split : ∀ t : Fin cfg0.N, (k0_cond1 (grid0.coords t) = 1#1 ∧ ¬ k0_cond2 (grid0.coords t) = 1#1)
    ∨ (¬ k0_cond1 (grid0.coords t) = 1#1 ∧ k0_cond2 (grid0.coords t) = 1#1) :=
  (by decide +kernel : ∀ t : Fin grid0.N, (k0_cond1 (grid0.coords t) = 1#1 ∧ ¬ k0_cond2 (grid0.coords t) = 1#1)
    ∨ (¬ k0_cond1 (grid0.coords t) = 1#1 ∧ k0_cond2 (grid0.coords t) = 1#1))
theorem cond2_of_not1 (t : Fin cfg0.N) (h1 : ¬ k0_cond1 (grid0.coords t) = 1#1) : k0_cond2 (grid0.coords t) = 1#1 := by
  rcases cond_split t with ⟨h, -⟩ | ⟨-, h⟩
  · exact absurd h h1
  · exact h
/-- So the output window is stored into at every point. -/
theorem idle_false : ∀ t : Fin cfg0.N, idle0 0 (grid0.coords t) = false :=
  (by decide +kernel : ∀ t : Fin grid0.N, idle0 0 (grid0.coords t) = false)

/-! ## The proof data -/

/-- What the staging buffer holds after the body at point `t`: the slab of the table the point copies. -/
def outAt (c : Dev nD) (t : Fin cfg0.N) : S5000x256.Idx → Elt F .f32 :=
  if h1 : k0_cond1 (grid0.coords t) = 1#1 then (slabU (grid0.coords t) h1).view.read (Elt F) (V m c main_v138)
  else (slabV (grid0.coords t) (cond2_of_not1 t h1)).view.read (Elt F) (V m c main_v147)

/-- The proof data of the one pipeline on core `c`: the result array as the region finds it; after the body at
    point `t` the staging buffer at the copied slab; the invariant of a body that drains its own transfers within
    the point; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = outAt m c t := by dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms t) fullShare ((dats m 0 c).before 0 t d)))

def bodyPost (c : Dev nD) (t : Fin cfg0.N) : sProp 𝕄 :=
  iprop((dats m 0 c).Φ t.succ ∗ (dats m 0 c).owesAt () t.succ
    ∗ owns (c : Thread nD τ) (ms t) fullShare ((dats m 0 c).after 0 t))

/-- The body at any point: the invariant hands it the semaphore's cell at zero and the two tables; whichever copy
    the point makes runs, and gives them back as they were with the slab in the staging buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨-, Hg, Hq, Hu, Hv⟩, ⟨%W, -, HW⟩, ⟨%d0, H0⟩⟩
  rcases cond_split t with ⟨h1, h2⟩ | ⟨h1, h2⟩
  · iapply (runA c (grid0.coords t) h1 h2 (ms t) (hs t) (V m c main_v138) (V m c main_v147) W _)
    isplitl [H0]; · iexists _; iexact H0
    isplitl [Hq]; · iexact Hq
    isplitl [Hu]; · iexact Hu
    isplitl [Hv]; · iexact Hv
    isplitl [HW]; · iexact HW
    iintro ⟨H0, Hq, Hu, Hv, ⟨%W', HW'⟩⟩
    isplitl [Hg Hq Hu Hv]
    · isplitr; · iempintro
      isplitl [Hg]; · iexact Hg
      isplitl [Hq]; · iexact Hq
      isplitl [Hu]; · iexact Hu
      iexact Hv
    isplitl [HW']
    · iexists W'; isplitr; · ipureintro; exact fun _ _ => Or.inl trivial
      iexact HW'
    unfold outAt; rw [dif_pos h1]; iexact H0
  · iapply (runB c (grid0.coords t) h1 h2 (ms t) (hs t) (V m c main_v138) (V m c main_v147) W _)
    isplitl [H0]; · iexists _; iexact H0
    isplitl [Hq]; · iexact Hq
    isplitl [Hu]; · iexact Hu
    isplitl [Hv]; · iexact Hv
    isplitl [HW]; · iexact HW
    iintro ⟨H0, Hq, Hu, Hv, ⟨%W', HW'⟩⟩
    isplitl [Hg Hq Hu Hv]
    · isplitr; · iempintro
      isplitl [Hg]; · iexact Hg
      isplitl [Hq]; · iexact Hq
      isplitl [Hu]; · iexact Hu
      iexact Hv
    isplitl [HW']
    · iexists W'; isplitr; · ipureintro; exact fun _ _ => Or.inl trivial
      iexact HW'
    unfold outAt; rw [dif_neg h1]; iexact H0

/-- The library's body obligation, at every point: the window is stored into at every point. -/
theorem body_obligation (c : Dev nD) : BodyObligation (dats (F := F) m 0 c) (defs₀ (F := F)) Variants.none () Set.univ := fun t => by
  rw [bigSep_W0, bigSep_W0]
  simp only [idle_false t]
  exact sound_body m c t

/-! ## The run and the frame -/

set_option backward.isDefEq.respectTransparency.types false in
/-- Every weakly fair execution of @main terminates, the result array at what the write-backs leave and every
    other unscoped buffer as the region found it. -/
theorem run_main : θ_run defs (onTc (τ := τ) (main (F := F))) (s₀ m ρ) (Pipeline.FramePost cfgs (dats m) 0 (V m)) :=
  Pipeline.θ_run_frame_dma cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The frame claim at any `F`: @main runs to the end, faults nowhere, and leaves its eight arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_ofD m ρ (dats m) (run_main m ρ)

end Cert.Kernel.Hand

end
-- ==== Proof.KiSetup.lean ====
/-
  The copy kernel's region, prepared for its frame run. At every grid point the body starts ONE transfer of a
  5000-row slab of one of the two tables left in HBM into the output window's staging buffer, on the kernel's one
  DMA semaphore, and waits for it before the point ends. So between points nothing is in flight: the semaphore's
  cell is at zero and the two tables are whole at the contents the region found them with. This module states that
  invariant conjunct by conjunct, the host lines before the region at the transfer-counting algebra, and the frame
  claim's post read off a frame run.
-/
import proofs.«100145_j46170898432330_2_alg».proof.Proof.Gen.KernelIdeal.Frame
import proofs.«100145_j46170898432330_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines before the region, at the algebra that counts the body's transfers -/

/-- @main is its five lines of host operations, then the region: the buffers the region finds are `Gen.V`. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The memrefs the body is called with -/

/-- The output window's current staging buffer at point `t`, and that it is a whole buffer. -/
abbrev ms (t : Fin cfg0.N) : Memref sig .tc .vmem S5000x256 .f32 := win0_0.stage (cfg0.slots t 0)
abbrev hs (t : Fin cfg0.N) : (ms t).IsWhole := hstage0_0 ((cfg0.slots t 0).cast nbuf0_0)
/-- The two updated tables, left in HBM, whole. -/
abbrev tabU : Memref sig .tc .hbm S200000x256 .f32 := Memref.whole main_v138
abbrev tabV : Memref sig .tc .hbm S200000x256 .f32 := Memref.whole main_v147
/-- A memref's buffer on core `c`: its contents type, and the buffer held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-! ## The kernel's own semaphore and the tables it reads -/

/-- The body's one DMA semaphore cell (number 2 of the pool: the window's two staging cells come first). -/
abbrev osem0 : Fin 1 → SemLoc sig := fun _ => SemLoc.dma 2
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0) := by
  rw [Pipeline.ownSems0_eq_of_list c osem0 [0] (by decide) (by decide)]; rfl

/-- The two tables as references: unscoped, and no window's array. -/
def H0 : Finset (Ref sig .tc) := {main_v138, main_v147}
theorem H0_sub : H0 ⊆ Pipeline.restRefs sig spec0 := by
  intro b hb
  simp only [H0, Finset.mem_insert, Finset.mem_singleton] at hb
  rcases hb with rfl | rfl <;> exact Pipeline.mem_restRefs_of _ (by decide) (by decide)
theorem hbmPts0_eq (c : Dev nD) :
    (bigSep H0 (fun b => ((c : Thread nD τ).loc b) ↦{fullShare} V m c b) : sProp 𝕄)
      = iprop(hbPt c tabU (V m c main_v138) ∗ hbPt c tabV (V m c main_v147)) := by
  rw [BI.bigSep_eq_bigSepL_of_eq [main_v138, main_v147] (by decide) (by decide)]; rfl

/-- The region's invariant, conjunct by conjunct: no scratch buffer, the generator register at some state, the
    semaphore cell at zero, the two tables whole at the contents the region found. -/
theorem PhiD0_eq (c : Dev nD) :
    (Pipeline.ΦD osem0 spec0 H0 (V m) c : sProp 𝕄)
      = iprop((BI.emp : sProp 𝕄) ∗ (∃ r, prngReg c r) ∗ iprop(semVal ((c : Thread nD τ), SemLoc.dma 2) 0)
          ∗ iprop(hbPt c tabU (V m c main_v138) ∗ hbPt c tabV (V m c main_v147))) := by
  rw [Pipeline.ΦD_eq, scopedRest0_eq, ownSems00_eq, hbmPts0_eq]

/-! ## The frame claim's post from a frame run -/

/-- A run that ends with every buffer outside the window's array as the region found it ends with the eight
    argument arrays as launched: no host line writes an argument. -/
theorem frame_ofD (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

end Cert.KernelIdeal.Hand

end
-- ==== Proof.KiRuns.lean ====
/-
  The copy kernel's body at one grid point, run symbolically. A point of the first half of the grid copies a
  5000-row slab of the first table into the output window's staging buffer and waits for the copy; a point of
  the second half does the same with the second table. Either way the staging buffer ends holding exactly the
  slab (a whole-buffer write reads back as its payload), the semaphore's cell is back at zero, and the tables,
  only read, are as they were.
-/
import proofs.«100145_j46170898432330_2_alg».proof.Proof.KiSetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body at one grid point -/

/-- The 5000-row slab of the first table that a point of the first half of the grid copies, and of the second table
    for a point of the second half: the tables' slices at the offsets the body computes. -/
abbrev slabU (i : grid0.Coords) (h1 : k0_cond1 i = 1#1) : Memref sig .tc .hbm S5000x256 .f32 :=
  tabU.slice (Rect.unit (s := S200000x256) (k0_off1 i) S5000x256.size (k0_off1_inb i h1)) (fun _ => rfl)
abbrev slabV (i : grid0.Coords) (h2 : k0_cond2 i = 1#1) : Memref sig .tc .hbm S5000x256 .f32 :=
  tabV.slice (Rect.unit (s := S200000x256) (k0_off2 i) S5000x256.size (k0_off2_inb i h2)) (fun _ => rfl)

/-- A point of the first half: the body starts the copy of the first table's slab into the staging buffer and
    waits for it. The buffer ends holding the slab, whatever it held; the semaphore's cell is back at zero and both
    tables are as they were. -/
theorem runA (c : Dev nD) (i : grid0.Coords) (h1 : k0_cond1 i = 1#1) (h2 : ¬ k0_cond2 i = 1#1)
    (arg3 : Memref sig .tc .vmem S5000x256 .f32) (harg3 : arg3.IsWhole)
    (fu : HbBuf (F := F) c tabU) (fv : HbBuf (F := F) c tabV) (W : Waits sig Unit) (K : PUnit → sProp 𝕄) :
    iprop((∃ d, owns (c : Thread nD τ) arg3 fullShare d) ∗ semVal ((c : Thread nD τ), SemLoc.dma 2) 0 ∗ hbPt c tabU fu ∗ hbPt c tabV fv ∗ owes (c : Thread nD τ) 0 W
        ∗ (iprop(owns (c : Thread nD τ) arg3 fullShare ((slabU i h1).view.read (Elt F) fu) ∗ semVal ((c : Thread nD τ), SemLoc.dma 2) 0 ∗ hbPt c tabU fu ∗ hbPt c tabV fv ∗ (∃ W', owes (c : Thread nD τ) 0 W')) -∗ K ⟨⟩))
      ⊢ wp frame (wpE (defs₀ (F := F)) Variants.none c none) Set.univ (cc0__concat_kernel i tabU (Memref.isWhole_whole _) tabV (Memref.isWhole_whole _) arg3 harg3 cc0_scratch0) K := by
  simp only [cc0__concat_kernel_eq_skeleton]; unfold cc0__concat_kernel_skel
  unfold owns
  iintro ⟨⟨%d1, %f1, -, H1⟩, Hq, Hu, Hv, HW, Hk⟩
  rw [dif_pos h1, dif_neg h2]
  sl_exec
  sl_step
  iapply Hk
  isplitl [H1]
  · iexists _; isplitr; swap; · iexact H1
    ipureintro; exact View.read_writes_whole _ _ _
  isplitl [Hq]; · iexact Hq
  isplitl [Hu]; · iexact Hu
  isplitl [Hv]; · iexact Hv
  iexists _; iexact HW

/-- A point of the second half: the same with the second table's slab. -/
theorem runB (c : Dev nD) (i : grid0.Coords) (h1 : ¬ k0_cond1 i = 1#1) (h2 : k0_cond2 i = 1#1)
    (arg3 : Memref sig .tc .vmem S5000x256 .f32) (harg3 : arg3.IsWhole)
    (fu : HbBuf (F := F) c tabU) (fv : HbBuf (F := F) c tabV) (W : Waits sig Unit) (K : PUnit → sProp 𝕄) :
    iprop((∃ d, owns (c : Thread nD τ) arg3 fullShare d) ∗ semVal ((c : Thread nD τ), SemLoc.dma 2) 0 ∗ hbPt c tabU fu ∗ hbPt c tabV fv ∗ owes (c : Thread nD τ) 0 W
        ∗ (iprop(owns (c : Thread nD τ) arg3 fullShare ((slabV i h2).view.read (Elt F) fv) ∗ semVal ((c : Thread nD τ), SemLoc.dma 2) 0 ∗ hbPt c tabU fu ∗ hbPt c tabV fv ∗ (∃ W', owes (c : Thread nD τ) 0 W')) -∗ K ⟨⟩))
      ⊢ wp frame (wpE (defs₀ (F := F)) Variants.none c none) Set.univ (cc0__concat_kernel i tabU (Memref.isWhole_whole _) tabV (Memref.isWhole_whole _) arg3 harg3 cc0_scratch0) K := by
  simp only [cc0__concat_kernel_eq_skeleton]; unfold cc0__concat_kernel_skel
  unfold owns
  iintro ⟨⟨%d1, %f1, -, H1⟩, Hq, Hu, Hv, HW, Hk⟩
  rw [dif_neg h1, dif_pos h2]
  sl_exec
  sl_step
  iapply Hk
  isplitl [H1]
  · iexists _; isplitr; swap; · iexact H1
    ipureintro; exact View.read_writes_whole _ _ _
  isplitl [Hq]; · iexact Hq
  isplitl [Hu]; · iexact Hu
  isplitl [Hv]; · iexact Hv
  iexists _; iexact HW

end Cert.KernelIdeal.Hand

end
-- ==== Proof.KiFrame.lean ====
/-
  The frame of the copy kernel's program: the proof data of its one pipeline (after the body at point t the
  staging buffer holds the slab the point copies), the body obligation from the two runs (every point makes
  exactly one of the two copies, so the output window is never idle), the frame run for a body that drains its
  own transfers within each point, and the frame claim: @main terminates, faults nowhere and leaves its eight
  argument arrays unchanged.
-/
import proofs.«100145_j46170898432330_2_alg».proof.Proof.KiRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Which copy a point makes -/

/-- Every grid point makes exactly one of the two copies: the first 40 points the first table's, the other 40 the
    second's (decided over the 80 points). -/
theorem cond_split : ∀ t : Fin cfg0.N, (k0_cond1 (grid0.coords t) = 1#1 ∧ ¬ k0_cond2 (grid0.coords t) = 1#1)
    ∨ (¬ k0_cond1 (grid0.coords t) = 1#1 ∧ k0_cond2 (grid0.coords t) = 1#1) :=
  (by decide +kernel : ∀ t : Fin grid0.N, (k0_cond1 (grid0.coords t) = 1#1 ∧ ¬ k0_cond2 (grid0.coords t) = 1#1)
    ∨ (¬ k0_cond1 (grid0.coords t) = 1#1 ∧ k0_cond2 (grid0.coords t) = 1#1))
theorem cond2_of_not1 (t : Fin cfg0.N) (h1 : ¬ k0_cond1 (grid0.coords t) = 1#1) : k0_cond2 (grid0.coords t) = 1#1 := by
  rcases cond_split t with ⟨h, -⟩ | ⟨-, h⟩
  · exact absurd h h1
  · exact h
/-- So the output window is stored into at every point. -/
theorem idle_false : ∀ t : Fin cfg0.N, idle0 0 (grid0.coords t) = false :=
  (by decide +kernel : ∀ t : Fin grid0.N, idle0 0 (grid0.coords t) = false)

/-! ## The proof data -/

/-- What the staging buffer holds after the body at point `t`: the slab of the table the point copies. -/
def outAt (c : Dev nD) (t : Fin cfg0.N) : S5000x256.Idx → Elt F .f32 :=
  if h1 : k0_cond1 (grid0.coords t) = 1#1 then (slabU (grid0.coords t) h1).view.read (Elt F) (V m c main_v138)
  else (slabV (grid0.coords t) (cond2_of_not1 t h1)).view.read (Elt F) (V m c main_v147)

/-- The proof data of the one pipeline on core `c`: the result array as the region finds it; after the body at
    point `t` the staging buffer at the copied slab; the invariant of a body that drains its own transfers within
    the point; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = outAt m c t := by dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms t) fullShare ((dats m 0 c).before 0 t d)))

def bodyPost (c : Dev nD) (t : Fin cfg0.N) : sProp 𝕄 :=
  iprop((dats m 0 c).Φ t.succ ∗ (dats m 0 c).owesAt () t.succ
    ∗ owns (c : Thread nD τ) (ms t) fullShare ((dats m 0 c).after 0 t))

/-- The body at any point: the invariant hands it the semaphore's cell at zero and the two tables; whichever copy
    the point makes runs, and gives them back as they were with the slab in the staging buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨-, Hg, Hq, Hu, Hv⟩, ⟨%W, -, HW⟩, ⟨%d0, H0⟩⟩
  rcases cond_split t with ⟨h1, h2⟩ | ⟨h1, h2⟩
  · iapply (runA c (grid0.coords t) h1 h2 (ms t) (hs t) (V m c main_v138) (V m c main_v147) W _)
    isplitl [H0]; · iexists _; iexact H0
    isplitl [Hq]; · iexact Hq
    isplitl [Hu]; · iexact Hu
    isplitl [Hv]; · iexact Hv
    isplitl [HW]; · iexact HW
    iintro ⟨H0, Hq, Hu, Hv, ⟨%W', HW'⟩⟩
    isplitl [Hg Hq Hu Hv]
    · isplitr; · iempintro
      isplitl [Hg]; · iexact Hg
      isplitl [Hq]; · iexact Hq
      isplitl [Hu]; · iexact Hu
      iexact Hv
    isplitl [HW']
    · iexists W'; isplitr; · ipureintro; exact fun _ _ => Or.inl trivial
      iexact HW'
    unfold outAt; rw [dif_pos h1]; iexact H0
  · iapply (runB c (grid0.coords t) h1 h2 (ms t) (hs t) (V m c main_v138) (V m c main_v147) W _)
    isplitl [H0]; · iexists _; iexact H0
    isplitl [Hq]; · iexact Hq
    isplitl [Hu]; · iexact Hu
    isplitl [Hv]; · iexact Hv
    isplitl [HW]; · iexact HW
    iintro ⟨H0, Hq, Hu, Hv, ⟨%W', HW'⟩⟩
    isplitl [Hg Hq Hu Hv]
    · isplitr; · iempintro
      isplitl [Hg]; · iexact Hg
      isplitl [Hq]; · iexact Hq
      isplitl [Hu]; · iexact Hu
      iexact Hv
    isplitl [HW']
    · iexists W'; isplitr; · ipureintro; exact fun _ _ => Or.inl trivial
      iexact HW'
    unfold outAt; rw [dif_neg h1]; iexact H0

/-- The library's body obligation, at every point: the window is stored into at every point. -/
theorem body_obligation (c : Dev nD) : BodyObligation (dats (F := F) m 0 c) (defs₀ (F := F)) Variants.none () Set.univ := fun t => by
  rw [bigSep_W0, bigSep_W0]
  simp only [idle_false t]
  exact sound_body m c t

/-! ## The run and the frame -/

set_option backward.isDefEq.respectTransparency.types false in
/-- Every weakly fair execution of @main terminates, the result array at what the write-backs leave and every
    other unscoped buffer as the region found it. -/
theorem run_main : θ_run defs (onTc (τ := τ) (main (F := F))) (s₀ m ρ) (Pipeline.FramePost cfgs (dats m) 0 (V m)) :=
  Pipeline.θ_run_frame_dma cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The frame claim at any `F`: @main runs to the end, faults nowhere, and leaves its eight arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_ofD m ρ (dats m) (run_main m ρ)

end Cert.KernelIdeal.Hand

end
-- ==== Proof.KiValue.lean ====
/-
  What the copy kernel's result array holds after the run. Point t of the 80-point grid writes back block t of the
  result (rows 5000·t … 5000·t + 4999); a point of the first half wrote there rows 5000·t … of the first table, a
  point of the second half rows 5000·(t − 40) … of the second. Both are block t of ONE array: the two tables
  stacked, the first's 200000 rows and then the second's. The blocks cover the result, so after the run the result
  IS the two tables stacked.
-/
import proofs.«100145_j46170898432330_2_alg».proof.Proof.KiFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the result array holds after the run -/

theorem hcat : Shape.Concatenates [S200000x256, S200000x256] S400000x256 0 := by decide

/-- The rows of the first table, then the rows of the second. -/
def G (a b : S200000x256.Idx → Elt F .f32) : S400000x256.Idx → Elt F .f32 :=
  concatenate S400000x256 0 [⟨S200000x256, a⟩, ⟨S200000x256, b⟩] hcat

/-- The printed index map of the output window and the offsets the body computes, decided over the grid: block `t`
    of the result starts at row 5000·t; a point of the first half reads the first table from row 5000·t, a point
    of the second half the second table from row 5000·(t − 40). -/
theorem idx_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem off1_facts : ∀ t : Fin cfg0.N, k0_cond1 (grid0.coords t) = 1#1 →
    k0_off1 (grid0.coords t) (0 : Fin 2) = 5000 * t.val ∧ k0_off1 (grid0.coords t) (1 : Fin 2) = 0 ∧ t.val < 40 :=
  (by decide +kernel : ∀ t : Fin grid0.N, k0_cond1 (grid0.coords t) = 1#1 →
    k0_off1 (grid0.coords t) (0 : Fin 2) = 5000 * t.val ∧ k0_off1 (grid0.coords t) (1 : Fin 2) = 0 ∧ t.val < 40)
theorem off2_facts : ∀ t : Fin cfg0.N, k0_cond2 (grid0.coords t) = 1#1 →
    k0_off2 (grid0.coords t) (0 : Fin 2) + 200000 = 5000 * t.val ∧ k0_off2 (grid0.coords t) (1 : Fin 2) = 0 :=
  (by decide +kernel : ∀ t : Fin grid0.N, k0_cond2 (grid0.coords t) = 1#1 →
    k0_off2 (grid0.coords t) (0 : Fin 2) + 200000 = 5000 * t.val ∧ k0_off2 (grid0.coords t) (1 : Fin 2) = 0)

/-- What point `t` writes back is block `t` of the two tables stacked. -/
theorem flushed_eq (c : Dev nD) (t : Fin cfg0.N) :
    (dats m 0 c).flushed 0 t = ((cfg0.win 0).blk t).view.read (Elt F) (G (V m c main_v138) (V m c main_v147)) := by
  show (cfg0.win 0).cut (grid0.coords t) ((dats m 0 c).after 0 t) = _
  rw [after0_0]
  obtain ⟨e0, e1⟩ := idx_facts t
  funext y
  unfold outAt
  by_cases h1 : k0_cond1 (grid0.coords t) = 1#1
  · rw [dif_pos h1]
    obtain ⟨o0, o1, -⟩ := off1_facts t h1
    show V m c main_v138 ((slabU (grid0.coords t) h1).view.emb y) = G (V m c main_v138) (V m c main_v147) (((cfg0.win 0).blk t).view.emb y)
    unfold G
    refine (concatenate_pair_apply_left (t := S400000x256) (s₁ := S200000x256) (s₂ := S200000x256) (0 : Fin 2) _ _ hcat _ rfl _ (fun b => ?_)).symm
    match b with
    | ⟨0, _⟩ => show k0_off1 (grid0.coords t) (0 : Fin 2) + 1 * (y 0).val = win0_0.index t (0 : Fin 2) * 5000 + 1 * (y 0).val; omega
    | ⟨1, _⟩ => show k0_off1 (grid0.coords t) (1 : Fin 2) + 1 * (y 1).val = win0_0.index t (1 : Fin 2) * 256 + 1 * (y 1).val; omega
  · rw [dif_neg h1]
    have h2 := cond2_of_not1 t h1
    obtain ⟨o0, o1⟩ := off2_facts t h2
    show V m c main_v147 ((slabV (grid0.coords t) h2).view.emb y) = G (V m c main_v138) (V m c main_v147) (((cfg0.win 0).blk t).view.emb y)
    unfold G
    refine (concatenate_pair_apply_right (t := S400000x256) (s₁ := S200000x256) (s₂ := S200000x256) (0 : Fin 2) _ _ hcat _ rfl rfl _ (fun b hb => ?_) ?_).symm
    · match b with
      | ⟨0, _⟩ => exact absurd rfl hb
      | ⟨1, _⟩ => show k0_off2 (grid0.coords t) (1 : Fin 2) + 1 * (y 1).val = win0_0.index t (1 : Fin 2) * 256 + 1 * (y 1).val; omega
    · show (k0_off2 (grid0.coords t) (0 : Fin 2) + 1 * (y 0).val) + 200000 = win0_0.index t (0 : Fin 2) * 5000 + 1 * (y 0).val; omega

/-- An index of the result is in point `t`'s block iff each coordinate is in the block's range on its axis. -/
theorem mem_blk (t : Fin cfg0.N) (i : S400000x256.Idx) :
    i ∈ ((cfg0.win 0).blk t).view.set ↔ ∀ a : Fin 2, win0_0.index t a * S5000x256.size a ≤ (i a).val ∧ (i a).val < win0_0.index t a * S5000x256.size a + S5000x256.size a := by
  show i ∈ ((View.whole main_v148).slice (win0_0.rect t)).set ↔ _
  rw [View.set_slice_whole, Rect.mem_set_unit]
  exact Iff.rfl

/-- Every row of the result lies in some point's block: row `r` in block `r / 5000`. -/
theorem cover (i : S400000x256.Idx) : ∃ t : Fin cfg0.N, (cfg0.win 0).flush t = true ∧ i ∈ ((cfg0.win 0).blk t).view.set := by
  have hi0 : (i 0).val < 400000 := (i 0).isLt
  have hi1 : (i 1).val < 256 := (i 1).isLt
  let t : Fin cfg0.N := ⟨(i 0).val / 5000, by show (i 0).val / 5000 < 80; omega⟩
  obtain ⟨e0, e1⟩ := idx_facts t
  have et : t.val = (i 0).val / 5000 := rfl
  refine ⟨t, flush0_0 t, ?_⟩
  rw [mem_blk]
  intro a
  match a with
  | ⟨0, _⟩ => show win0_0.index t (0 : Fin 2) * 5000 ≤ (i 0).val ∧ (i 0).val < win0_0.index t (0 : Fin 2) * 5000 + 5000; omega
  | ⟨1, _⟩ => show win0_0.index t (1 : Fin 2) * 256 ≤ (i 1).val ∧ (i 1).val < win0_0.index t (1 : Fin 2) * 256 + 256; omega

/-- The result array after the run: the two tables, as the region found them, stacked. -/
theorem final (c : Dev nD) : (dats m 0 c).arrAt 0 cfg0.N = G (V m c main_v138) (V m c main_v147) :=
  (dats m 0 c).arrAt_eq_of_cover 0 (G (V m c main_v138) (V m c main_v147)) (fun t _ => flushed_eq m c t) cover

/-- The run, read: the result array holds the two tables stacked, and the eight arguments are unchanged. -/
theorem run_value : θ_run defs (onTc (τ := τ) (main (F := F))) ⟨m, fun _ => 0, ρ⟩ (fun r => ∀ c : Dev nD,
      r.2.mem ((c.tc : Thread nD τ).loc main_v148) = G (V m c main_v138) (V m c main_v147)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1 0).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Hand

end
-- ==== Proof.HostPrefix.lean ====
/-
  The host operations the two programs share.

  Both programs begin with the same 205 host operations on the same eight argument arrays: rows of the two
  [200000, 256] argument tables are gathered by index, combined elementwise, and scatter-added back, which
  yields two new [200000, 256] tables. Call them the first and the second table. The reference then lays the
  first table over the second along the row axis, and that [400000, 256] array is its result. The kernel
  instead enters its region with the two tables in its buffers.

  This module states the one fact that links the two: under agreement of the argument arrays, the reference's
  result is the row-wise concatenation of the two tables AS THE KERNEL'S REGION FINDS THEM.

  Why it holds. Each side is a composed term of the eight argument arrays. The reference's result is that
  term by definition. What the kernel's region finds in a buffer is the fold of the kernel's host operations,
  one by one, over the launch contents: each operation overwrites its own result buffer with its function of
  its operands' contents and leaves every other buffer alone, so reading a buffer after the fold unwinds to
  the same composed term. The two programs declare their shapes, dimension records and side conditions
  separately, but these are equal by unfolding, and the operations are the same operations in the same order.
  Once the reference's argument arrays are replaced by the kernel's, the two terms are therefore equal by
  computation alone.
-/
import proofs.«100145_j46170898432330_2_alg».proof.Proof.Gen.KernelIdeal.Frame
import proofs.«100145_j46170898432330_2_alg».proof.Proof.Gen.ReferenceIdeal.Run
import Idealize.ShloMosaic.PureOps.Ideal

set_option pp.maxSteps 5000
set_option pp.deepTerms false

noncomputable section

namespace Cert.Bridge

open Idealize.ShloMosaic Idealize.ShloMosaic.TcCoe Idealize.SL.Sem Idealize.ShloMosaic.StableHlo

set_option maxRecDepth 16384 in
set_option maxHeartbeats 400000000 in
/-- Under agreement of the eight argument arrays, the reference's result is the first table over the second
    table, row-wise, where the two tables are what the kernel's region finds in its buffers on entry.

    The reference's result is opened to its composed term, its argument arrays are replaced by the kernel's,
    and the equation is then closed by computation: reading a buffer after the kernel's host operations
    unwinds to the same term. -/
theorem reference_eq_concat_tables
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v148 m' c
      = concatenate Cert.ReferenceIdeal.S400000x256 0
          [⟨Cert.ReferenceIdeal.S200000x256, Cert.KernelIdeal.Gen.V m c Cert.KernelIdeal.main_v138⟩,
           ⟨Cert.ReferenceIdeal.S200000x256, Cert.KernelIdeal.Gen.V m c Cert.KernelIdeal.main_v147⟩]
          Cert.ReferenceIdeal.Gen.concatenates_S200000x256_S200000x256_S400000x256_d0 := by
  unfold Cert.ReferenceIdeal.Value.res_main_v148
  rw [h0, h1, h2, h3, h4, h5, h6, h7]
  rfl

/-- The same, with the agreement of the argument arrays given as one conjunction, argument by argument in
    order. -/
theorem reference_eq_concat_tables_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v148 m' c
      = concatenate Cert.ReferenceIdeal.S400000x256 0
          [⟨Cert.ReferenceIdeal.S200000x256, Cert.KernelIdeal.Gen.V m c Cert.KernelIdeal.main_v138⟩,
           ⟨Cert.ReferenceIdeal.S200000x256, Cert.KernelIdeal.Gen.V m c Cert.KernelIdeal.main_v147⟩]
          Cert.ReferenceIdeal.Gen.concatenates_S200000x256_S200000x256_S400000x256_d0 :=
  reference_eq_concat_tables m m' c h.1 h.2.1 h.2.2.1 h.2.2.2.1 h.2.2.2.2.1 h.2.2.2.2.2.1 h.2.2.2.2.2.2.1 h.2.2.2.2.2.2.2

end Cert.Bridge

end
-- ==== Proof.LibConcatRows.lean ====
/-
  A general fact about the host's `concatenate` of two two-axis arrays along the row axis.

  Laying an [n, k] array `x` on top of an [n', k] array `y` gives an [N, k] array (N = n + n') whose
  row `r` is row `r` of `x` when `r < n` and row `r - n` of `y` otherwise; the column is unchanged.
  The statements read the concatenation at ONE symbolic index: nothing here enumerates the rows, so the
  extents may be as large as one likes.
-/
import Idealize.ShloMosaic.Lib.Pipeline.Value
import Idealize.ShloMosaic.Lib.ValueIdx

namespace Idealize.ShloMosaic.LibConcatRows

open Idealize.ShloMosaic Idealize.ShloMosaic.ValueIdx

variable {α : Type}

/-- The extents along the row axis add up: if an [n, k] and an [n', k] array concatenate along axis 0 to an
    [N, k] array, then `n + n' = N`. -/
theorem rows_add {n n' N k : Nat}
    (h : Shape.Concatenates [(⟨2, ![n, k]⟩ : Shape), ⟨2, ![n', k]⟩] ⟨2, ![N, k]⟩ 0) : n + n' = N := by
  have e := h.2.2
  simpa using e

/-- A row of the concatenation that lies above the seam (`r < n`) is that row of the upper array. -/
theorem concatenate_rows_apply_upper {n n' N k : Nat}
    (x : (⟨2, ![n, k]⟩ : Shape).Idx → α) (y : (⟨2, ![n', k]⟩ : Shape).Idx → α)
    (h : Shape.Concatenates [(⟨2, ![n, k]⟩ : Shape), ⟨2, ![n', k]⟩] ⟨2, ![N, k]⟩ 0)
    (j : (⟨2, ![N, k]⟩ : Shape).Idx) (hj : (j 0).val < n) :
    concatenate ⟨2, ![N, k]⟩ 0 [⟨⟨2, ![n, k]⟩, x⟩, ⟨⟨2, ![n', k]⟩, y⟩] h j
      = x (ix2 ⟨(j 0).val, hj⟩ ⟨(j 1).val, idx2_lt1 j⟩) :=
  concatenate_pair_apply_left 0 x y h j rfl _ (fun b => by
    match b with
    | ⟨0, _⟩ => rfl
    | ⟨1, _⟩ => rfl)

/-- A row of the concatenation at or below the seam (`n ≤ r`) is row `r - n` of the lower array. -/
theorem concatenate_rows_apply_lower {n n' N k : Nat}
    (x : (⟨2, ![n, k]⟩ : Shape).Idx → α) (y : (⟨2, ![n', k]⟩ : Shape).Idx → α)
    (h : Shape.Concatenates [(⟨2, ![n, k]⟩ : Shape), ⟨2, ![n', k]⟩] ⟨2, ![N, k]⟩ 0)
    (j : (⟨2, ![N, k]⟩ : Shape).Idx) (hj : n ≤ (j 0).val) :
    concatenate ⟨2, ![N, k]⟩ 0 [⟨⟨2, ![n, k]⟩, x⟩, ⟨⟨2, ![n', k]⟩, y⟩] h j
      = y (ix2 ⟨(j 0).val - n, by have := rows_add h; have := idx2_lt0 j; omega⟩ ⟨(j 1).val, idx2_lt1 j⟩) :=
  concatenate_pair_apply_right 0 x y h j rfl rfl _
    (fun b hb => by
      match b with
      | ⟨0, _⟩ => exact absurd rfl hb
      | ⟨1, _⟩ => rfl)
    (by show (j 0).val - n + n = (j 0).val; omega)

/-- The concatenation of an [n, k] array over an [n', k] array, read at any index: above the seam the upper
    array at the same row and column, from the seam on the lower array `n` rows up. -/
theorem concatenate_rows_apply {n n' N k : Nat}
    (x : (⟨2, ![n, k]⟩ : Shape).Idx → α) (y : (⟨2, ![n', k]⟩ : Shape).Idx → α)
    (h : Shape.Concatenates [(⟨2, ![n, k]⟩ : Shape), ⟨2, ![n', k]⟩] ⟨2, ![N, k]⟩ 0)
    (j : (⟨2, ![N, k]⟩ : Shape).Idx) :
    concatenate ⟨2, ![N, k]⟩ 0 [⟨⟨2, ![n, k]⟩, x⟩, ⟨⟨2, ![n', k]⟩, y⟩] h j
      = if hj : (j 0).val < n then x (ix2 ⟨(j 0).val, hj⟩ ⟨(j 1).val, idx2_lt1 j⟩)
        else y (ix2 ⟨(j 0).val - n, by have := rows_add h; have := idx2_lt0 j; omega⟩ ⟨(j 1).val, idx2_lt1 j⟩) := by
  split
  · next hj => exact concatenate_rows_apply_upper x y h j hj
  · next hj => exact concatenate_rows_apply_lower x y h j (Nat.le_of_not_lt hj)

/-- The same, with the row and the column named by the caller: whenever `r` and `c` are the index's two
    coordinates and `r < n`, the concatenation reads the upper array at `(r, c)`. -/
theorem concatenate_rows_upper_of {n n' N k : Nat}
    (x : (⟨2, ![n, k]⟩ : Shape).Idx → α) (y : (⟨2, ![n', k]⟩ : Shape).Idx → α)
    (h : Shape.Concatenates [(⟨2, ![n, k]⟩ : Shape), ⟨2, ![n', k]⟩] ⟨2, ![N, k]⟩ 0)
    (j : (⟨2, ![N, k]⟩ : Shape).Idx) (r : Fin n) (c : Fin k)
    (hr : r.val = (j 0).val) (hc : c.val = (j 1).val) :
    concatenate ⟨2, ![N, k]⟩ 0 [⟨⟨2, ![n, k]⟩, x⟩, ⟨⟨2, ![n', k]⟩, y⟩] h j = x (ix2 r c) := by
  rw [concatenate_rows_apply_upper x y h j (by have := r.isLt; omega)]
  congr 1
  funext b
  match b with
  | ⟨0, _⟩ => exact Fin.ext hr.symm
  | ⟨1, _⟩ => exact Fin.ext hc.symm

/-- And for the lower array: whenever `r + n` and `c` are the index's two coordinates, the concatenation
    reads the lower array at `(r, c)`. -/
theorem concatenate_rows_lower_of {n n' N k : Nat}
    (x : (⟨2, ![n, k]⟩ : Shape).Idx → α) (y : (⟨2, ![n', k]⟩ : Shape).Idx → α)
    (h : Shape.Concatenates [(⟨2, ![n, k]⟩ : Shape), ⟨2, ![n', k]⟩] ⟨2, ![N, k]⟩ 0)
    (j : (⟨2, ![N, k]⟩ : Shape).Idx) (r : Fin n') (c : Fin k)
    (hr : r.val + n = (j 0).val) (hc : c.val = (j 1).val) :
    concatenate ⟨2, ![N, k]⟩ 0 [⟨⟨2, ![n, k]⟩, x⟩, ⟨⟨2, ![n', k]⟩, y⟩] h j = y (ix2 r c) := by
  rw [concatenate_rows_apply_lower x y h j (by omega)]
  congr 1
  funext b
  match b with
  | ⟨0, _⟩ => exact Fin.ext (by show (j 0).val - n = r.val; omega)
  | ⟨1, _⟩ => exact Fin.ext hc.symm

/-! The literal extents of a 200000-row pair: the statement above at `n = n' = 200000`, `N = 400000`,
    `k = 256`. It is an instance of the general statement; no row is enumerated. -/

/-- Two [200000, 256] arrays, one over the other, read at an index of the [400000, 256] result. -/
theorem concatenate_200000x256_pair_apply
    (x y : (⟨2, ![200000, 256]⟩ : Shape).Idx → α)
    (h : Shape.Concatenates [(⟨2, ![200000, 256]⟩ : Shape), ⟨2, ![200000, 256]⟩] ⟨2, ![400000, 256]⟩ 0)
    (j : (⟨2, ![400000, 256]⟩ : Shape).Idx) :
    concatenate ⟨2, ![400000, 256]⟩ 0 [⟨⟨2, ![200000, 256]⟩, x⟩, ⟨⟨2, ![200000, 256]⟩, y⟩] h j
      = if hj : (j 0).val < 200000 then x (ix2 ⟨(j 0).val, hj⟩ ⟨(j 1).val, idx2_lt1 j⟩)
        else y (ix2 ⟨(j 0).val - 200000, by have := idx2_lt0 j; omega⟩ ⟨(j 1).val, idx2_lt1 j⟩) :=
  concatenate_rows_apply x y h j

end Idealize.ShloMosaic.LibConcatRows
-- ==== Proof.lean ====
/-
  A kernel program against its reference, over the extended reals. Both programs compute, with the same host
  operations (row gathers of two embedding tables, a lookup-table sigmoid of clipped row dot products, accumulating
  row scatters), two updated [200000, 256] tables, and return them stacked into one [400000, 256] array. The
  reference stacks them with the host's concatenate. The kernel stacks them with a region of 80 grid points, each
  copying one 5000-row slab of one table into its block of the result by a transfer the body starts and waits for.

  The three frames: the kernel's two programs (as printed, and read at the ideal instance) run their region under
  the invariant "the body's semaphore is at zero and the two tables are whole and unchanged between points"; the
  reference has no region, and its frame is its run with the result dropped. Nothing was rewritten by the
  idealization, so that conjunct is trivial. For the equivalence, the kernel's result after the run is the two
  tables stacked (the blocks the points write back are the blocks of that one array, and they cover it), the
  reference's result is the concatenate of the same two tables, and the tables are the same functions of the
  arguments because the host lines before the region are, operation for operation, the reference's.
-/
import proofs.«100145_j46170898432330_2_alg».proof.Defs
import proofs.«100145_j46170898432330_2_alg».proof.Proof.Gen.Kernel
import proofs.«100145_j46170898432330_2_alg».proof.Proof.Gen.KernelIdeal
import proofs.«100145_j46170898432330_2_alg».proof.Proof.Gen.ReferenceIdeal
import proofs.«100145_j46170898432330_2_alg».proof.Proof.Gen.ReferenceIdeal.Run
import proofs.«100145_j46170898432330_2_alg».proof.Proof.Gen.Pre_finite_inputs
import proofs.«100145_j46170898432330_2_alg».proof.Proof.KFrame
import proofs.«100145_j46170898432330_2_alg».proof.Proof.KiFrame
import proofs.«100145_j46170898432330_2_alg».proof.Proof.KiValue
import proofs.«100145_j46170898432330_2_alg».proof.Proof.HostPrefix
import proofs.«100145_j46170898432330_2_alg».proof.Proof.LibConcatRows
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both results are the two updated tables stacked: the kernel's by its region's write-backs, the reference's by the
    host's concatenate; and the tables are the same functions of arguments that agree. -/
theorem algebraic : Cert.algebraic_KernelIdeal_ReferenceIdeal := by
  intro m ρ m' ρ' _ hagree
  refine ⟨fun c => Cert.KernelIdeal.Hand.G (Cert.KernelIdeal.Gen.V m c Cert.KernelIdeal.main_v138) (Cert.KernelIdeal.Gen.V m c Cert.KernelIdeal.main_v147),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  exact Cert.Bridge.reference_eq_concat_tables_of_agree m m' c (hagree c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
